-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S2048 .f32) (main_arg5 : FVec F S512x2048 .f32) (main_arg6 : FVec F S512 .f32) (main_arg7 : FVec F S1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S32768x512 .f32) (main_arg1 : FVec F S2048x512 .f32) (main_arg2 : FVec F S2048 .f32) (main_arg3 : FVec F S2048x2048 .f32) (main_arg4 : FVec F S2048 .f32) (main_arg5 : FVec F S512x2048 .f32) (main_arg6 : FVec F S512 .f32) (main_arg7 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S32768x512 : Shape := ⟨2, ![32768, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S1 : Shape := ⟨1, ![1]⟩
abbrev S_ : Shape := ⟨0, ![]⟩
abbrev S1x2048 : Shape := ⟨2, ![1, 2048]⟩
abbrev S1x1 : Shape := ⟨2, ![1, 1]⟩
abbrev S32768x2048 : Shape := ⟨2, ![32768, 2048]⟩
abbrev S32768x1 : Shape := ⟨2, ![32768, 1]⟩
abbrev S1x512 : Shape := ⟨2, ![1, 512]⟩
abbrev S512x512 : Shape := ⟨2, ![512, 512]⟩
abbrev S512x1 : Shape := ⟨2, ![512, 1]⟩
abbrev S1024x2048 : Shape := ⟨2, ![1024, 2048]⟩
abbrev S1024x1 : Shape := ⟨2, ![1024, 1]⟩
abbrev S1024x512 : Shape := ⟨2, ![1024, 512]⟩

abbrev nBuf : Space → Nat
  | .hbm => 69
  | .vmem => 31
  | .smem => 0
  | _ => 0

abbrev bufTy : (tb : Table) → Fin (tcTables nBuf tb) → BufTy
  | .hbm, ⟨0, _⟩ => ⟨S32768x512, .f32⟩
  | .hbm, ⟨1, _⟩ => ⟨S2048x512, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S1, .f32⟩
  | .hbm, ⟨8, _⟩ => ⟨S2048x512, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048x512, .f32⟩
  | .hbm, ⟨16, _⟩ => ⟨S2048x512, .i1⟩
  | .hbm, ⟨17, _⟩ => ⟨S_, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S512x2048, .f32⟩
  | .hbm, ⟨23, _⟩ => ⟨S512x2048, .bf16⟩
  | .hbm, ⟨24, _⟩ => ⟨S1x2048, .f32⟩
  | .hbm, ⟨25, _⟩ => ⟨S1x2048, .f32⟩
  | .hbm, ⟨26, _⟩ => ⟨S1x1, .f32⟩
  | .hbm, ⟨27, _⟩ => ⟨S32768x2048, .bf16⟩
  | .hbm, ⟨28, _⟩ => ⟨S32768x1, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048x2048, .f32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .bf16⟩
  | .hbm, ⟨45, _⟩ => ⟨S1x2048, .f32⟩
  | .hbm, ⟨46, _⟩ => ⟨S1x2048, .f32⟩
  | .hbm, ⟨47, _⟩ => ⟨S1x1, .f32⟩
  | .hbm, ⟨48, _⟩ => ⟨S32768x2048, .bf16⟩
  | .hbm, ⟨49, _⟩ => ⟨S32768x1, .f32⟩
  | .hbm, ⟨50, _⟩ => ⟨S512x2048, .f32⟩
  | .hbm, ⟨51, _⟩ => ⟨S_, .f32⟩
  | .hbm, ⟨52, _⟩ => ⟨S512, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S_, .f32⟩
  | .hbm, ⟨57, _⟩ => ⟨S512x2048, .f32⟩
  | .hbm, ⟨58, _⟩ => ⟨S512x2048, .i1⟩
  | .hbm, ⟨59, _⟩ => ⟨S_, .f32⟩
  | .hbm, ⟨60, _⟩ => ⟨S_, .f32⟩
  | .hbm, ⟨61, _⟩ => ⟨S512x2048, .f32⟩
  | .hbm, ⟨62, _⟩ => ⟨S512x2048, .f32⟩
  | .hbm, ⟨63, _⟩ => ⟨S512x2048, .f32⟩
  | .hbm, ⟨64, _⟩ => ⟨S2048x512, .f32⟩
  | .hbm, ⟨65, _⟩ => ⟨S2048x512, .bf16⟩
  | .hbm, ⟨66, _⟩ => ⟨S1x512, .f32⟩
  | .hbm, ⟨67, _⟩ => ⟨S1x512, .f32⟩
  | .hbm, ⟨68, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S1x2048, .f32⟩
  | .local _ .vmem, ⟨4, _⟩ => ⟨S1x2048, .f32⟩
  | .local _ .vmem, ⟨5, _⟩ => ⟨S1x1, .f32⟩
  | .local _ .vmem, ⟨6, _⟩ => ⟨S512x2048, .bf16⟩
  | .local _ .vmem, ⟨7, _⟩ => ⟨S512x2048, .bf16⟩
  | .local _ .vmem, ⟨8, _⟩ => ⟨S512x1, .f32⟩
  | .local _ .vmem, ⟨9, _⟩ => ⟨S512x1, .f32⟩
  | .local _ .vmem, ⟨10, _⟩ => ⟨S512x2048, .bf16⟩
  | .local _ .vmem, ⟨11, _⟩ => ⟨S512x2048, .bf16⟩
  | .local _ .vmem, ⟨12, _⟩ => ⟨S512x1, .f32⟩
  | .local _ .vmem, ⟨13, _⟩ => ⟨S512x1, .f32⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S1x1, .f32⟩
  | .local _ .vmem, ⟨18, _⟩ => ⟨S512x2048, .bf16⟩
  | .local _ .vmem, ⟨19, _⟩ => ⟨S512x2048, .bf16⟩
  | .local _ .vmem, ⟨20, _⟩ => ⟨S512x1, .f32⟩
  | .local _ .vmem, ⟨21, _⟩ => ⟨S512x1, .f32⟩
  | .local _ .vmem, ⟨22, _⟩ => ⟨S1024x2048, .bf16⟩
  | .local _ .vmem, ⟨23, _⟩ => ⟨S1024x2048, .bf16⟩
  | .local _ .vmem, ⟨24, _⟩ => ⟨S1024x1, .f32⟩
  | .local _ .vmem, ⟨25, _⟩ => ⟨S1024x1, .f32⟩
  | .local _ .vmem, ⟨26, _⟩ => ⟨S2048x512, .bf16⟩
  | .local _ .vmem, ⟨27, _⟩ => ⟨S1x512, .f32⟩
  | .local _ .vmem, ⟨28, _⟩ => ⟨S1x512, .f32⟩
  | .local _ .vmem, ⟨29, _⟩ => ⟨S1024x512, .f32⟩
  | .local _ .vmem, ⟨30, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_cst_0 : Ref sig .tc := ⟨.hbm, 11, rfl⟩
abbrev main_call0_v2 : Ref sig .tc := ⟨.hbm, 12, rfl⟩
abbrev main_call0_v3 : Ref sig .tc := ⟨.hbm, 13, rfl⟩
abbrev main_call0_cst_1 : Ref sig .tc := ⟨.hbm, 14, rfl⟩
abbrev main_call0_v4 : Ref sig .tc := ⟨.hbm, 15, rfl⟩
abbrev main_call0_v5 : Ref sig .tc := ⟨.hbm, 16, rfl⟩
abbrev main_call0_cst_2 : Ref sig .tc := ⟨.hbm, 17, rfl⟩
abbrev main_call0_cst_3 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12_0 : Ref sig .tc := ⟨.hbm, 27, rfl⟩
abbrev main_call0_v12_1 : Ref sig .tc := ⟨.hbm, 28, rfl⟩
abbrev main_call0_v13 : Ref sig .tc := ⟨.hbm, 29, rfl⟩
abbrev main_call0_cst_4 : Ref sig .tc := ⟨.hbm, 30, rfl⟩
abbrev main_call0_v14 : Ref sig .tc := ⟨.hbm, 31, rfl⟩
abbrev main_call0_cst_5 : Ref sig .tc := ⟨.hbm, 32, rfl⟩
abbrev main_call0_v15 : Ref sig .tc := ⟨.hbm, 33, rfl⟩
abbrev main_call0_v16 : Ref sig .tc := ⟨.hbm, 34, rfl⟩
abbrev main_call0_cst_6 : Ref sig .tc := ⟨.hbm, 35, rfl⟩
abbrev main_call0_v17 : Ref sig .tc := ⟨.hbm, 36, rfl⟩
abbrev main_call0_v18 : Ref sig .tc := ⟨.hbm, 37, rfl⟩
abbrev main_call0_cst_7 : Ref sig .tc := ⟨.hbm, 38, rfl⟩
abbrev main_call0_cst_8 : Ref sig .tc := ⟨.hbm, 39, rfl⟩
abbrev main_call0_call1_v0 : Ref sig .tc := ⟨.hbm, 40, rfl⟩
abbrev main_call0_call1_v1 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_v25_0 : Ref sig .tc := ⟨.hbm, 48, rfl⟩
abbrev main_call0_v25_1 : Ref sig .tc := ⟨.hbm, 49, rfl⟩
abbrev main_call0_v26 : Ref sig .tc := ⟨.hbm, 50, rfl⟩
abbrev main_call0_cst_9 : Ref sig .tc := ⟨.hbm, 51, rfl⟩
abbrev main_call0_v27 : Ref sig .tc := ⟨.hbm, 52, rfl⟩
abbrev main_call0_cst_10 : Ref sig .tc := ⟨.hbm, 53, rfl⟩
abbrev main_call0_v28 : Ref sig .tc := ⟨.hbm, 54, rfl⟩
abbrev main_call0_v29 : Ref sig .tc := ⟨.hbm, 55, rfl⟩
abbrev main_call0_cst_11 : Ref sig .tc := ⟨.hbm, 56, rfl⟩
abbrev main_call0_v30 : Ref sig .tc := ⟨.hbm, 57, rfl⟩
abbrev main_call0_v31 : Ref sig .tc := ⟨.hbm, 58, rfl⟩
abbrev main_call0_cst_12 : Ref sig .tc := ⟨.hbm, 59, rfl⟩
abbrev main_call0_cst_13 : Ref sig .tc := ⟨.hbm, 60, rfl⟩
abbrev main_call0_call2_v0 : Ref sig .tc := ⟨.hbm, 61, rfl⟩
abbrev main_call0_call2_v1 : Ref sig .tc := ⟨.hbm, 62, rfl⟩
abbrev main_call0_v32 : Ref sig .tc := ⟨.hbm, 63, rfl⟩
abbrev main_call0_v33 : Ref sig .tc := ⟨.hbm, 64, rfl⟩
abbrev main_call0_v34 : Ref sig .tc := ⟨.hbm, 65, rfl⟩
abbrev main_call0_v35 : Ref sig .tc := ⟨.hbm, 66, rfl⟩
abbrev main_call0_v36 : Ref sig .tc := ⟨.hbm, 67, rfl⟩
abbrev main_v0 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  reducesTo_S2048x512_S2048_d1 : S2048x512.ReducesTo [1] S2048
  h_S_ : 0 < S_.numel
  bcast_S_S2048 : S_.BroadcastsInDim S2048 (![] : Fin 0 → Fin S2048.rank)
  bcast_S_S2048x512 : S_.BroadcastsInDim S2048x512 (![] : Fin 0 → Fin S2048x512.rank)
  transposes_S2048x512_S512x2048_1_0 : S2048x512.Transposes [1, 0] S512x2048
  bitsLt_bf16_f32 : FTy.bits .bf16 < FTy.bits .f32
  shapeCasts_S2048_S1x2048 : S2048.ShapeCasts S1x2048
  shapeCasts_S1_S1x1 : S1.ShapeCasts S1x1
  reducesTo_S2048x2048_S2048_d1 : S2048x2048.ReducesTo [1] S2048
  bcast_S_S2048x2048 : S_.BroadcastsInDim S2048x2048 (![] : Fin 0 → Fin S2048x2048.rank)
  transposes_S2048x2048_S2048x2048_1_0 : S2048x2048.Transposes [1, 0] S2048x2048
  reducesTo_S512x2048_S512_d1 : S512x2048.ReducesTo [1] S512
  bcast_S_S512 : S_.BroadcastsInDim S512 (![] : Fin 0 → Fin S512.rank)
  bcast_S_S512x2048 : S_.BroadcastsInDim S512x2048 (![] : Fin 0 → Fin S512x2048.rank)
  transposes_S512x2048_S2048x512_1_0 : S512x2048.Transposes [1, 0] S2048x512
  shapeCasts_S512_S1x512 : S512.ShapeCasts S1x512
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  packedbf16_S512x2048_S512x2048_0_0 : (Rect.unit (s := S512x2048) ![0, 0] S512x2048.size inb_S512x2048_S512x2048_0_0).PackedRows (EltTy.packing .bf16)
  reduces_S512x2048_S512 : S512x2048.Reduces [1] S512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S512x512_S512x2048_S512x2048_1_0_0_1_n_n_wf : DotDims.WF S512x512 S512x2048 S512x2048 [1] [0] [0] [1] [] []
  dot_S512x2048_S2048x2048_S512x2048_1_0_0_1_n_n_wf : DotDims.WF S512x2048 S2048x2048 S512x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S32768x2048.size a
  hwx0_5 : ∀ i : grid0.Coords, EltTy.bits .bf16 = 32 ∨ (Rect.block (s := S32768x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S32768x1.size a
  hwx0_6 : ∀ i : grid0.Coords, EltTy.bits .f32 = 32 ∨ (Rect.block (s := S32768x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S32768x2048.size a
  hwx1_0 : ∀ i : grid1.Coords, EltTy.bits .bf16 = 32 ∨ (Rect.block (s := S32768x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S32768x1.size a
  hwx1_1 : ∀ i : grid1.Coords, EltTy.bits .f32 = 32 ∨ (Rect.block (s := S32768x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x2048.size a ≤ S32768x2048.size a
  hwx1_6 : ∀ i : grid1.Coords, EltTy.bits .bf16 = 32 ∨ (Rect.block (s := S32768x2048) S512x2048.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S32768x1.size a
  hwx1_7 : ∀ i : grid1.Coords, EltTy.bits .f32 = 32 ∨ (Rect.block (s := S32768x1) S512x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S32768x2048.size a
  hwx2_0 : ∀ i : grid2.Coords, EltTy.bits .bf16 = 32 ∨ (Rect.block (s := S32768x2048) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S32768x1.size a
  hwx2_1 : ∀ i : grid2.Coords, EltTy.bits .f32 = 32 ∨ (Rect.block (s := S32768x1) S1024x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S2048x512.size a
  hwx2_2 : ∀ i : grid2.Coords, EltTy.bits .bf16 = 32 ∨ (Rect.block (s := S2048x512) S2048x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S32768x512.size a
  hwx2_5 : ∀ i : grid2.Coords, EltTy.bits .f32 = 32 ∨ (Rect.block (s := S32768x512) S1024x512.size (cc2_transform_5 i) (hinb2_5 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v12_0) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v12_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v12_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12_1) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v21) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v22) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v23) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v24) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v25_0) S512x2048.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v25_1) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v25_0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v25_1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v34) S2048x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v35) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v36) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S1024x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32768x512 : Shape := ⟨2, ![32768, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S1 : Shape := ⟨1, ![1]⟩
abbrev S_ : Shape := ⟨0, ![]⟩
abbrev S32768 : Shape := ⟨1, ![32768]⟩
abbrev S32768x1 : Shape := ⟨2, ![32768, 1]⟩
abbrev S32768x2048 : Shape := ⟨2, ![32768, 2048]⟩
abbrev S1x2048 : Shape := ⟨2, ![1, 2048]⟩
abbrev S1x1 : Shape := ⟨2, ![1, 1]⟩
abbrev S1x512 : Shape := ⟨2, ![1, 512]⟩

abbrev nBuf : Space → Nat
  | .hbm => 145
  | .vmem => 0
  | .smem => 0
  | _ => 0

abbrev hbmTy0_0 (i : Nat) : BufTy := match i % 128 with
  | 0 => ⟨S32768x512, .f32⟩
  | 1 => ⟨S2048x512, .f32⟩
  | 2 => ⟨S2048, .f32⟩
  | 3 => ⟨S2048x2048, .f32⟩
  | 4 => ⟨S2048, .f32⟩
  | 5 => ⟨S512x2048, .f32⟩
  | 6 => ⟨S512, .f32⟩
  | 7 => ⟨S1, .f32⟩
  | 8 => ⟨S32768x512, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S2048x512, .f32⟩
  | 16 => ⟨S_, .f32⟩
  | 17 => ⟨S2048, .f32⟩
  | 18 => ⟨S_, .f32⟩
  | 19 => ⟨S2048, .f32⟩
  | 20 => ⟨S2048, .f32⟩
  | 21 => ⟨S_, .f32⟩
  | 22 => ⟨S32768x512, .f32⟩
  | 23 => ⟨S32768x512, .i1⟩
  | 24 => ⟨S_, .f32⟩
  | 25 => ⟨S_, .f32⟩
  | 26 => ⟨S32768x512, .f32⟩
  | 27 => ⟨S32768x512, .f32⟩
  | 28 => ⟨S32768x512, .f32⟩
  | 29 => ⟨S32768x512, .f32⟩
  | 30 => ⟨S_, .f32⟩
  | 31 => ⟨S2048x512, .f32⟩
  | 32 => ⟨S2048x512, .i1⟩
  | 33 => ⟨S_, .f32⟩
  | 34 => ⟨S_, .f32⟩
  | 35 => ⟨S2048x512, .f32⟩
  | 36 => ⟨S2048x512, .f32⟩
  | 37 => ⟨S2048x512, .f32⟩
  | 38 => ⟨S2048x512, .f32⟩
  | 39 => ⟨S512x2048, .f32⟩
  | 40 => ⟨S32768x2048, .f32⟩
  | 41 => ⟨S32768x2048, .f32⟩
  | 42 => ⟨S32768x2048, .f32⟩
  | 43 => ⟨S1x2048, .f32⟩
  | 44 => ⟨S32768x2048, .f32⟩
  | 45 => ⟨S32768x2048, .f32⟩
  | 46 => ⟨S1x2048, .f32⟩
  | 47 => ⟨S32768x2048, .f32⟩
  | 48 => ⟨S32768x2048, .f32⟩
  | 49 => ⟨S_, .f32⟩
  | 50 => ⟨S32768x2048, .f32⟩
  | 51 => ⟨S32768x2048, .i1⟩
  | 52 => ⟨S1x1, .f32⟩
  | 53 => ⟨S32768x2048, .f32⟩
  | 54 => ⟨S32768x2048, .f32⟩
  | 55 => ⟨S32768x2048, .f32⟩
  | 56 => ⟨S32768x2048, .f32⟩
  | 57 => ⟨S_, .f32⟩
  | 58 => ⟨S32768, .f32⟩
  | 59 => ⟨S32768x1, .f32⟩
  | 60 => ⟨S_, .f32⟩
  | 61 => ⟨S32768x1, .f32⟩
  | 62 => ⟨S32768x1, .f32⟩
  | 63 => ⟨S2048x2048, .f32⟩
  | 64 => ⟨S_, .f32⟩
  | 65 => ⟨S2048, .f32⟩
  | 66 => ⟨S_, .f32⟩
  | 67 => ⟨S2048, .f32⟩
  | 68 => ⟨S2048, .f32⟩
  | 69 => ⟨S_, .f32⟩
  | 70 => ⟨S32768x2048, .f32⟩
  | 71 => ⟨S32768x2048, .i1⟩
  | 72 => ⟨S_, .f32⟩
  | 73 => ⟨S_, .f32⟩
  | 74 => ⟨S32768x2048, .f32⟩
  | 75 => ⟨S32768x2048, .f32⟩
  | 76 => ⟨S32768x2048, .f32⟩
  | 77 => ⟨S32768x2048, .f32⟩
  | 78 => ⟨S_, .f32⟩
  | 79 => ⟨S2048x2048, .f32⟩
  | 80 => ⟨S2048x2048, .i1⟩
  | 81 => ⟨S_, .f32⟩
  | 82 => ⟨S_, .f32⟩
  | 83 => ⟨S2048x2048, .f32⟩
  | 84 => ⟨S2048x2048, .f32⟩
  | 85 => ⟨S2048x2048, .f32⟩
  | 86 => ⟨S2048x2048, .f32⟩
  | 87 => ⟨S2048x2048, .f32⟩
  | 88 => ⟨S32768x2048, .f32⟩
  | 89 => ⟨S32768x2048, .f32⟩
  | 90 => ⟨S32768x2048, .f32⟩
  | 91 => ⟨S1x2048, .f32⟩
  | 92 => ⟨S32768x2048, .f32⟩
  | 93 => ⟨S32768x2048, .f32⟩
  | 94 => ⟨S1x2048, .f32⟩
  | 95 => ⟨S32768x2048, .f32⟩
  | 96 => ⟨S32768x2048, .f32⟩
  | 97 => ⟨S_, .f32⟩
  | 98 => ⟨S32768x2048, .f32⟩
  | 99 => ⟨S32768x2048, .i1⟩
  | 100 => ⟨S1x1, .f32⟩
  | 101 => ⟨S32768x2048, .f32⟩
  | 102 => ⟨S32768x2048, .f32⟩
  | 103 => ⟨S32768x2048, .f32⟩
  | 104 => ⟨S32768x2048, .f32⟩
  | 105 => ⟨S_, .f32⟩
  | 106 => ⟨S32768, .f32⟩
  | 107 => ⟨S32768x1, .f32⟩
  | 108 => ⟨S_, .f32⟩
  | 109 => ⟨S32768x1, .f32⟩
  | 110 => ⟨S32768x1, .f32⟩
  | 111 => ⟨S512x2048, .f32⟩
  | 112 => ⟨S_, .f32⟩
  | 113 => ⟨S512, .f32⟩
  | 114 => ⟨S_, .f32⟩
  | 115 => ⟨S512, .f32⟩
  | 116 => ⟨S512, .f32⟩
  | 117 => ⟨S_, .f32⟩
  | 118 => ⟨S32768x2048, .f32⟩
  | 119 => ⟨S32768x2048, .i1⟩
  | 120 => ⟨S_, .f32⟩
  | 121 => ⟨S_, .f32⟩
  | 122 => ⟨S32768x2048, .f32⟩
  | 123 => ⟨S32768x2048, .f32⟩
  | 124 => ⟨S32768x2048, .f32⟩
  | 125 => ⟨S32768x2048, .f32⟩
  | 126 => ⟨S_, .f32⟩
  | 127 => ⟨S512x2048, .f32⟩
  | _ => ⟨S32768x512, .f32⟩

abbrev hbmTy0_1 (i : Nat) : BufTy := match i % 128 with
  | 0 => ⟨S512x2048, .i1⟩
  | 1 => ⟨S_, .f32⟩
  | 2 => ⟨S_, .f32⟩
  | 3 => ⟨S512x2048, .f32⟩
  | 4 => ⟨S512x2048, .f32⟩
  | 5 => ⟨S512x2048, .f32⟩
  | 6 => ⟨S512x2048, .f32⟩
  | 7 => ⟨S2048x512, .f32⟩
  | 8 => ⟨S32768x512, .f32⟩
  | 9 => ⟨S32768x512, .f32⟩
  | 10 => ⟨S32768x512, .f32⟩
  | 11 => ⟨S1x512, .f32⟩
  | 12 => ⟨S32768x512, .f32⟩
  | 13 => ⟨S32768x512, .f32⟩
  | 14 => ⟨S1x512, .f32⟩
  | 15 => ⟨S32768x512, .f32⟩
  | 16 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_v12 : Ref sig .tc := ⟨.hbm, 29, rfl⟩
abbrev main_cst_6 : Ref sig .tc := ⟨.hbm, 30, rfl⟩
abbrev main_v13 : Ref sig .tc := ⟨.hbm, 31, rfl⟩
abbrev main_v14 : Ref sig .tc := ⟨.hbm, 32, rfl⟩
abbrev main_cst_7 : Ref sig .tc := ⟨.hbm, 33, rfl⟩
abbrev main_cst_8 : Ref sig .tc := ⟨.hbm, 34, rfl⟩
abbrev main_call1_v0 : Ref sig .tc := ⟨.hbm, 35, rfl⟩
abbrev main_call1_v1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_cst_13 : Ref sig .tc := ⟨.hbm, 66, rfl⟩
abbrev main_v40 : Ref sig .tc := ⟨.hbm, 67, rfl⟩
abbrev main_v41 : Ref sig .tc := ⟨.hbm, 68, rfl⟩
abbrev main_cst_14 : Ref sig .tc := ⟨.hbm, 69, rfl⟩
abbrev main_v42 : Ref sig .tc := ⟨.hbm, 70, rfl⟩
abbrev main_v43 : Ref sig .tc := ⟨.hbm, 71, rfl⟩
abbrev main_cst_15 : Ref sig .tc := ⟨.hbm, 72, rfl⟩
abbrev main_cst_16 : Ref sig .tc := ⟨.hbm, 73, rfl⟩
abbrev main_call3_v0 : Ref sig .tc := ⟨.hbm, 74, rfl⟩
abbrev main_call3_v1 : Ref sig .tc := ⟨.hbm, 75, rfl⟩
abbrev main_v44 : Ref sig .tc := ⟨.hbm, 76, rfl⟩
abbrev main_v45 : Ref sig .tc := ⟨.hbm, 77, rfl⟩
abbrev main_cst_17 : Ref sig .tc := ⟨.hbm, 78, rfl⟩
abbrev main_v46 : Ref sig .tc := ⟨.hbm, 79, rfl⟩
abbrev main_v47 : Ref sig .tc := ⟨.hbm, 80, rfl⟩
abbrev main_cst_18 : Ref sig .tc := ⟨.hbm, 81, rfl⟩
abbrev main_cst_19 : Ref sig .tc := ⟨.hbm, 82, rfl⟩
abbrev main_call4_v0 : Ref sig .tc := ⟨.hbm, 83, rfl⟩
abbrev main_call4_v1 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_20 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_21 : Ref sig .tc := ⟨.hbm, 105, rfl⟩
abbrev main_v67 : Ref sig .tc := ⟨.hbm, 106, rfl⟩
abbrev main_v68 : Ref sig .tc := ⟨.hbm, 107, rfl⟩
abbrev main_cst_22 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_23 : Ref sig .tc := ⟨.hbm, 112, rfl⟩
abbrev main_v72 : Ref sig .tc := ⟨.hbm, 113, rfl⟩
abbrev main_cst_24 : Ref sig .tc := ⟨.hbm, 114, rfl⟩
abbrev main_v73 : Ref sig .tc := ⟨.hbm, 115, rfl⟩
abbrev main_v74 : Ref sig .tc := ⟨.hbm, 116, rfl⟩
abbrev main_cst_25 : Ref sig .tc := ⟨.hbm, 117, rfl⟩
abbrev main_v75 : Ref sig .tc := ⟨.hbm, 118, rfl⟩
abbrev main_v76 : Ref sig .tc := ⟨.hbm, 119, rfl⟩
abbrev main_cst_26 : Ref sig .tc := ⟨.hbm, 120, rfl⟩
abbrev main_cst_27 : Ref sig .tc := ⟨.hbm, 121, rfl⟩
abbrev main_call6_v0 : Ref sig .tc := ⟨.hbm, 122, rfl⟩
abbrev main_call6_v1 : Ref sig .tc := ⟨.hbm, 123, rfl⟩
abbrev main_v77 : Ref sig .tc := ⟨.hbm, 124, rfl⟩
abbrev main_v78 : Ref sig .tc := ⟨.hbm, 125, rfl⟩
abbrev main_cst_28 : Ref sig .tc := ⟨.hbm, 126, rfl⟩
abbrev main_v79 : Ref sig .tc := ⟨.hbm, 127, rfl⟩
abbrev main_v80 : Ref sig .tc := ⟨.hbm, 128, rfl⟩
abbrev main_cst_29 : Ref sig .tc := ⟨.hbm, 129, rfl⟩
abbrev main_cst_30 : Ref sig .tc := ⟨.hbm, 130, rfl⟩
abbrev main_call7_v0 : Ref sig .tc := ⟨.hbm, 131, rfl⟩
abbrev main_call7_v1 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  reducesTo_S2048x512_S2048_d1 : S2048x512.ReducesTo [1] S2048
  bcast_S_S2048 : S_.BroadcastsInDim S2048 (![] : Fin 0 → Fin S2048.rank)
  bcast_S_S32768x512 : S_.BroadcastsInDim S32768x512 (![] : Fin 0 → Fin S32768x512.rank)
  bcast_S_S2048x512 : S_.BroadcastsInDim S2048x512 (![] : Fin 0 → Fin S2048x512.rank)
  transposes_S2048x512_S512x2048_1_0 : S2048x512.Transposes [1, 0] S512x2048
  bcast_S32768x1_S32768x2048_0_1 : S32768x1.BroadcastsInDim S32768x2048 (![0, 1] : Fin 2 → Fin S32768x2048.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S1_S1x1_1 : S1.BroadcastsInDim S1x1 (![1] : Fin 1 → Fin S1x1.rank)
  bcast_S1x1_S32768x2048_0_1 : S1x1.BroadcastsInDim S32768x2048 (![0, 1] : Fin 2 → Fin S32768x2048.rank)
  reducesTo_S32768x2048_S32768_d1 : S32768x2048.ReducesTo [1] S32768
  reducesTo_S2048x2048_S2048_d1 : S2048x2048.ReducesTo [1] S2048
  bcast_S_S2048x2048 : S_.BroadcastsInDim S2048x2048 (![] : Fin 0 → Fin S2048x2048.rank)
  transposes_S2048x2048_S2048x2048_1_0 : S2048x2048.Transposes [1, 0] S2048x2048
  reducesTo_S512x2048_S512_d1 : S512x2048.ReducesTo [1] S512
  bcast_S_S512 : S_.BroadcastsInDim S512 (![] : Fin 0 → Fin S512.rank)
  bcast_S_S512x2048 : S_.BroadcastsInDim S512x2048 (![] : Fin 0 → Fin S512x2048.rank)
  transposes_S512x2048_S2048x512_1_0 : S512x2048.Transposes [1, 0] S2048x512
  bcast_S32768x1_S32768x512_0_1 : S32768x1.BroadcastsInDim S32768x512 (![0, 1] : Fin 2 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x512_S512x2048_S32768x2048_1_0_0_1_n_n_wf : DotDims.WF S32768x512 S512x2048 S32768x2048 [1] [0] [0] [1] [] []
  dot_S32768x2048_S2048x2048_S32768x2048_1_0_0_1_n_n_wf : DotDims.WF S32768x2048 S2048x2048 S32768x2048 [1] [0] [0] [1] [] []
  dot_S32768x2048_S2048x512_S32768x512_1_0_0_1_n_n_wf : DotDims.WF S32768x2048 S2048x512 S32768x512 [1] [0] [0] [1] [] []

variable [Facts₀]

def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x2048_S2048x512_S32768x512_1_0_0_1_n_n : DotDims S32768x2048 S2048x512 S32768x512 where
  lhsContracting := [1]
  rhsContracting := [0]
  lhsNonContracting := [0]
  rhsNonContracting := [1]
  lhsBatch := []
  rhsBatch := []
  wf := dot_S32768x2048_S2048x512_S32768x512_1_0_0_1_n_n_wf

class Facts : Prop extends Facts₀ where

variable [Facts]
-- ==== Proof.KRun.lean ====
/-
  The idealized kernel's run with its result named.

  The program is three kernel launches among stretches of host operations. Its run from any launch memory ends
  with every buffer the kernels do not scope at the last boundary's contents: the fold, through the three host
  stretches and the three launches, of what each host operation computes and of what each launch's write-backs
  leave in its output arrays. Read at the result buffer this names the result; read at an argument it gives the
  argument back, since nothing writes one.
-/
import proofs.«136084_j28200755265763_2_alg».proof.Proof.PatchedFrameKI

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and every argument array as launched. -/
theorem run_main : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.Spec.lean ====
/-
  The network both programs compute, written once as functions of the argument arrays on the extended reals.

  A binarized linear layer takes a matrix of row signs `sx` (entries +1 or -1), a scale `beta` per row, the
  transposed sign matrix `swT` of the weights, a scale `alpha` per output column and a bias, and returns at row
  `r` and column `n`

      ((sum over k of sx[r,k] * swT[k,n]) * beta[r]) * alpha[n] + bias[n].

  The row signs are `sgn` of the layer's input (with `sgn 0 = 1`), the scales are the means of absolute values
  along a row (the row sum divided by the row length, given as a float constant), and between layers the
  parametric rectifier `prelu p z = z` when `z > 0`, else `p * z`, is applied. Entry `(r, n)` of a layer depends
  only on row `r` of its input, which is what lets a kernel compute it block of rows by block of rows.
-/
import Idealize.ShloMosaic.PureOps.Ideal.Laws
import Idealize.ShloMosaic.Lib.ValueIdx

noncomputable section

namespace Cert.Xnor

open Idealize.ShloMosaic Idealize.ShloMosaic.ValueIdx

/-- An `R` by `C` matrix of extended reals, indexed the way the programs index their arrays. -/
abbrev Mat (R C : ℕ) := (⟨2, ![R, C]⟩ : Shape).Idx → EReal

/-- The float zero both programs compare against. -/
def zero : EReal := Ideal.ofBits .f32 0x00000000#32
/-- The row lengths the means divide by, as the float constants 512 and 2048. -/
def d512 : EReal := Ideal.ofBits .f32 0x44000000#32
def d2048 : EReal := Ideal.ofBits .f32 0x45000000#32

/-- The sign with `sgn 0 = 1`: +1 where `x ≥ 0`, else -1. -/
def sgn (x : EReal) : EReal :=
  Scalar.select (Ideal.cmp .oge x zero) (Ideal.ofBits .f32 0x3F800000#32) (Ideal.ofBits .f32 0xBF800000#32)

/-- The parametric rectifier: `z` where `z > 0`, else `p * z`. -/
def prelu (p z : EReal) : EReal := Scalar.select (Ideal.cmp .ogt z zero) z (p * z)

/-- The mean of absolute values along row `r`: the row's sum of `|x|` divided by `d`. -/
def rowMean {R C : ℕ} (d : EReal) (X : Mat R C) (r : Fin R) : EReal :=
  Ideal.div (∑ c : Fin C, max (X (ix2 r c)) (-(X (ix2 r c)))) d

/-- The entrywise sign of a matrix. -/
def sgnM {R C : ℕ} (X : Mat R C) : Mat R C := fun i => sgn (X i)

/-- The transposed sign matrix of the weights: entry `(k, n)` is `sgn W[n, k]`. -/
def sgnT {N K : ℕ} (W : Mat N K) : Mat K N := fun i => sgn (W (ix2 (i 1) (i 0)))

/-- The binarized linear layer. -/
def lin {R K N : ℕ} (sx : Mat R K) (beta : Fin R → EReal) (swT : Mat K N) (alpha bias : Fin N → EReal) : Mat R N :=
  fun i => ((∑ k : Fin K, sx (ix2 (i 0) k) * swT (ix2 k (i 1))) * beta (i 0)) * alpha (i 1) + bias (i 1)

/-- A hidden layer: the linear layer followed by the parametric rectifier. -/
def hidden {R K N : ℕ} (p : EReal) (sx : Mat R K) (beta : Fin R → EReal) (swT : Mat K N) (alpha bias : Fin N → EReal) :
    Mat R N :=
  fun i => prelu p (lin sx beta swT alpha bias i)

/-- The first hidden layer from the real-valued input. -/
def layer1 (p : EReal) (X : Mat 32768 512) (W1 : Mat 2048 512) (b1 : Fin 2048 → EReal) : Mat 32768 2048 :=
  hidden p (sgnM X) (rowMean d512 X) (sgnT W1) (rowMean d512 W1) b1

/-- The second hidden layer from the first. -/
def layer2 (p : EReal) (H1 : Mat 32768 2048) (W2 : Mat 2048 2048) (b2 : Fin 2048 → EReal) : Mat 32768 2048 :=
  hidden p (sgnM H1) (rowMean d2048 H1) (sgnT W2) (rowMean d2048 W2) b2

/-- The output layer from the second hidden layer (no rectifier). -/
def layer3 (H2 : Mat 32768 2048) (W3 : Mat 512 2048) (b3 : Fin 512 → EReal) : Mat 32768 512 :=
  lin (sgnM H2) (rowMean d2048 H2) (sgnT W3) (rowMean d2048 W3) b3

/-- The whole network. -/
def net (X : Mat 32768 512) (W1 : Mat 2048 512) (b1 : Fin 2048 → EReal) (W2 : Mat 2048 2048) (b2 : Fin 2048 → EReal)
    (W3 : Mat 512 2048) (b3 : Fin 512 → EReal) (p : EReal) : Mat 32768 512 :=
  layer3 (layer2 p (layer1 p X W1 b1) W2 b2) W3 b3

/-- Entry `(r', n)` of a linear layer over one set of rows equals entry `(r, n)` over another when the two rows of
    signs agree and the two row scales agree. -/
theorem lin_row_congr {R R' K N : ℕ} {sx : Mat R K} {sx' : Mat R' K} {beta : Fin R → EReal} {beta' : Fin R' → EReal}
    (swT : Mat K N) (alpha bias : Fin N → EReal) {r : Fin R} {r' : Fin R'} (n : Fin N)
    (hs : ∀ k, sx' (ix2 r' k) = sx (ix2 r k)) (hb : beta' r' = beta r) :
    lin sx' beta' swT alpha bias (ix2 r' n) = lin sx beta swT alpha bias (ix2 r n) := by
  show ((∑ k : Fin K, sx' (ix2 r' k) * swT (ix2 k n)) * beta' r') * alpha n + bias n
    = ((∑ k : Fin K, sx (ix2 r k) * swT (ix2 k n)) * beta r) * alpha n + bias n
  rw [hb, Finset.sum_congr rfl fun k _ => by rw [hs k]]

/-- The row mean of one matrix at row `r'` equals that of another at row `r` when the two rows agree. -/
theorem rowMean_row_congr {R R' C : ℕ} (d : EReal) {X : Mat R C} {X' : Mat R' C} {r : Fin R} {r' : Fin R'}
    (h : ∀ c, X' (ix2 r' c) = X (ix2 r c)) : rowMean d X' r' = rowMean d X r := by
  unfold rowMean
  rw [Finset.sum_congr rfl fun c _ => by rw [h c]]

end Cert.Xnor

end
-- ==== Proof.KernelOps.lean ====
/-
  The kernels' vector operations read at an entry, at the ideal values, generic in the block sizes.

  * The mean of absolute values along a row as a kernel spells it: absolute value, a sum along the second axis, the
    result `[R]` recast to a column `[R, 1]`, divided by a splat float constant. At `(r, 0)` this is the row mean.
  * The affine part of a binarized linear layer as a kernel spells it: a matrix product into a zero accumulator,
    times a column `[R, 1]` broadcast along the rows, times a row `[1, N]` broadcast down the columns, plus another
    such row. At `(r, n)` this is the layer's entry.
  * The sign and rectifier selects are entrywise, so they hold by unfolding.
-/
import Idealize.ShloMosaic.PureOps.Ideal.Laws
import Idealize.ShloMosaic.Lib.ValueIdx
import Idealize.ShloMosaic.Lib.ValueLayout
import Idealize.ShloMosaic.Lib.Pipeline.Value
import proofs.«136084_j28200755265763_2_alg».proof.Proof.LibKeepdims
import proofs.«136084_j28200755265763_2_alg».proof.Proof.LibMatmulSum
import proofs.«136084_j28200755265763_2_alg».proof.Proof.Spec

noncomputable section

namespace Cert.Xnor

open Idealize.ShloMosaic Idealize.ShloMosaic.ValueIdx

/-- A value per row as a one-column matrix. -/
def colOf {R : ℕ} (f : Fin R → EReal) : Mat R 1 := fun i => f (i 0)

theorem colOf_apply {R : ℕ} (f : Fin R → EReal) (r : Fin R) (z : Fin 1) : colOf f (ix2 r z) = f r := rfl

/-- A kernel's row mean of absolute values, read at `(r, 0)`. -/
theorem kernel_rowMean_apply {R C : ℕ} (X : FVec Ideal ⟨2, ![R, C]⟩ .f32) (dbits : BitVec 32)
    (hred : (⟨2, ![R, C]⟩ : Shape).Reduces [1] ⟨1, ![R]⟩) (hsc : (⟨1, ![R]⟩ : Shape).ShapeCasts ⟨2, ![R, 1]⟩) (r : Fin R) :
    divf (shapeCast ⟨2, ![R, 1]⟩ (multiReduction (F := Ideal) .add [1] ⟨1, ![R]⟩ (absf X) 0x00000000#32 hred (.inl rfl) rfl) hsc)
        (broadcast ⟨2, ![R, 1]⟩ (Scalar.ofBits (F := Ideal) .f32 dbits)) (ix2 r (0 : Fin 1))
      = rowMean (Ideal.ofBits .f32 dbits) X r := by
  show Ideal.div (shapeCast ⟨2, ![R, 1]⟩ (multiReduction (F := Ideal) .add [1] ⟨1, ![R]⟩ (absf X) 0x00000000#32 hred (.inl rfl) rfl) hsc
        (ix2 r (0 : Fin 1))) (Ideal.ofBits .f32 dbits) = _
  refine congrArg (fun z => Ideal.div z (Ideal.ofBits .f32 dbits)) ?_
  refine (Cert.LibKeepdims.shapeCast_a_a1_apply _ hsc r (0 : Fin 1)).trans ?_
  exact Cert.LibKeepdims.add_axis1_apply (absf X) 0x00000000#32 hred (.inl rfl) rfl r

/-- The affine part of a binarized linear layer as a kernel spells it, read at `(r, n)`. -/
theorem kernel_lin_apply {R K N : ℕ} {φ₁ φ₂ : FTy} (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (sx : FVec Ideal ⟨2, ![R, K]⟩ φ₁) (w : FVec Ideal ⟨2, ![K, N]⟩ φ₂) (beta : FVec Ideal ⟨2, ![R, 1]⟩ .f32)
    (a b : FVec Ideal ⟨2, ![1, N]⟩ .f32)
    (hb1 : (⟨2, ![R, 1]⟩ : Shape).Broadcasts ⟨2, ![R, N]⟩) (hb2 : (⟨2, ![1, N]⟩ : Shape).Broadcasts ⟨2, ![R, N]⟩)
    (r : Fin R) (n : Fin N) :
    addf (mulf (mulf (matmul D none sx w (constant (F := Ideal) ⟨2, ![R, N]⟩ .f32 0x00000000#32))
        (broadcastTo ⟨2, ![R, N]⟩ beta hb1)) (broadcastTo ⟨2, ![R, N]⟩ a hb2)) (broadcastTo ⟨2, ![R, N]⟩ b hb2) (ix2 r n)
      = lin sx (fun r => beta (ix2 r (0 : Fin 1))) w (fun n => a (ix2 (0 : Fin 1) n)) (fun n => b (ix2 (0 : Fin 1) n)) (ix2 r n) := by
  show (matmul D none sx w (constant (F := Ideal) ⟨2, ![R, N]⟩ .f32 0x00000000#32) (ix2 r n)
        * broadcastTo ⟨2, ![R, N]⟩ beta hb1 (ix2 r n)) * broadcastTo ⟨2, ![R, N]⟩ a hb2 (ix2 r n)
        + broadcastTo ⟨2, ![R, N]⟩ b hb2 (ix2 r n) = _
  rw [Cert.LibKeepdims.broadcastTo_a1_ab_apply, broadcastTo_1b_ab_apply, broadcastTo_1b_ab_apply]
  refine congrArg (fun z => (z * beta (ix2 r (0 : Fin 1))) * a (ix2 (0 : Fin 1) n) + b (ix2 (0 : Fin 1) n)) ?_
  exact Cert.GraphConv.matmul_zero_sum D none hr hs hl0 hl1 hr0 hr1 sx w (ix2 r n)

/-- A kernel's sign select (compare against a splat zero, select between splat +1 and -1, change of format) is the
    entrywise sign. -/
theorem kernel_sgn_eq {s : Shape} (X : FVec Ideal s .f32) (hlt : FTy.bf16.bits < FTy.f32.bits) :
    (truncf .bf16 (select (cmpf .oge X (broadcast s (Scalar.ofBits (F := Ideal) .f32 0x00000000#32)))
        (broadcast s (Scalar.ofBits (F := Ideal) .f32 0x3F800000#32)) (broadcast s (Scalar.ofBits (F := Ideal) .f32 0xBF800000#32)))
      hlt : FVec Ideal s .bf16) = fun i => sgn (X i) := rfl

/-- A kernel's rectifier select (compare against a splat zero, select between the value and the splat slope times
    the value) is the entrywise rectifier. -/
theorem kernel_prelu_eq {s : Shape} (p : EReal) (Z : FVec Ideal s .f32) :
    select (cmpf .ogt Z (broadcast s (Scalar.ofBits (F := Ideal) .f32 0x00000000#32))) Z (mulf (broadcast s p) Z)
      = fun i => prelu p (Z i) := rfl

end Cert.Xnor

end
-- ==== Proof.Body.lean ====
/-
  What each kernel body computes from the blocks it loads, read at an entry, at the ideal values.

  The first kernel's block of the hidden layer at `(r, n)` is the layer's entry computed from row `r` of the input
  block: the sign matrix and the row mean are taken inside the body. The second and third kernels receive the row
  signs and the row means as blocks. Each sign block is the entrywise sign of the hidden block, and each mean block
  is the row mean of its absolute values. Each body's value is first restated over named pieces (the row signs, the
  row means, the affine part), which then are read one at a time.
-/
import proofs.«136084_j28200755265763_2_alg».proof.Proof.Gen.KernelIdeal.Skeleton
import proofs.«136084_j28200755265763_2_alg».proof.Proof.KernelOps

noncomputable section

namespace Cert.KernelIdeal.Body

open Cert.KernelIdeal Cert.KernelIdeal.Gen Idealize.ShloMosaic Idealize.ShloMosaic.ValueIdx Cert.Xnor

/-! ## The three matrix products' dimension records: which coordinate of each operand index comes from where -/

theorem d0_l0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem d0_l1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem d0_r0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem d0_r1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

theorem d1_l0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem d1_l1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem d1_r0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem d1_r1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

theorem d2_l0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem d2_l1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem d2_r0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem d2_r1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The one entry of a `[1, 1]` block, as the bodies extract it. -/
theorem extract_one (p : FVec Ideal S1x1 .f32) : extractAt ![0, 0] p inpos_S1x1_p0_0 = p (ix2 (0 : Fin 1) (0 : Fin 1)) :=
  congrArg p (funext fun a => Fin.ext (by match a with | ⟨0, _⟩ => rfl | ⟨1, _⟩ => rfl))

/-- A linear layer's value does not change when each of its five operands is replaced by an equal one. -/
theorem lin_congr {R K N : ℕ} {sx sx' : Mat R K} {beta beta' : Fin R → EReal} {w w' : Mat K N} {a a' b b' : Fin N → EReal}
    (h1 : sx = sx') (h2 : beta = beta') (h3 : w = w') (h4 : a = a') (h5 : b = b') :
    lin sx beta w a b = lin sx' beta' w' a' b' := by subst h1 h2 h3 h4 h5; rfl

/-! ## The first kernel -/

/-- The row signs the first kernel takes of its input block. -/
def sx0 (x0 : FVec Ideal S512x512 .f32) : FVec Ideal S512x512 .bf16 :=
  truncf .bf16 (select (cmpf .oge x0 (broadcast S512x512 (Scalar.ofBits (F := Ideal) .f32 0x00000000#32)))
    (broadcast S512x512 (Scalar.ofBits (F := Ideal) .f32 0x3F800000#32)) (broadcast S512x512 (Scalar.ofBits (F := Ideal) .f32 0xBF800000#32))) bitsLt_bf16_f32

/-- The row means the first kernel takes of its input block, as a column. -/
def be0 (x0 : FVec Ideal S512x512 .f32) : FVec Ideal S512x1 .f32 :=
  divf (shapeCast S512x1 (multiReduction (F := Ideal) .add [1] S512 (absf x0) 0x00000000#32 reduces_S512x512_S512 (.inl rfl) rfl) shapeCasts_S512_S512x1)
    (broadcast S512x1 (Scalar.ofBits (F := Ideal) .f32 0x44000000#32))

/-- The affine part of the first kernel's layer. -/
def aff0 (x0 : FVec Ideal S512x512 .f32) (w : FVec Ideal S512x2048 .bf16) (a b : FVec Ideal S1x2048 .f32) : FVec Ideal S512x2048 .f32 :=
  addf (mulf (mulf (matmul dot_S512x512_S512x2048_S512x2048_1_0_0_1_n_n none (sx0 x0) (shapeCast S512x2048 w shapeCasts_S512x2048_S512x2048)
      (constant (F := Ideal) S512x2048 .f32 0x00000000#32)) (broadcastTo S512x2048 (be0 x0) broadcasts_S512x1_S512x2048))
    (broadcastTo S512x2048 (shapeCast S1x2048 a shapeCasts_S1x2048_S1x2048) broadcasts_S1x2048_S512x2048))
    (broadcastTo S512x2048 (shapeCast S1x2048 b shapeCasts_S1x2048_S1x2048) broadcasts_S1x2048_S512x2048)

/-- The first kernel's hidden block is the rectifier of its affine part. -/
theorem pay2_eq (x0 : FVec Ideal S512x512 .f32) (w : FVec Ideal S512x2048 .bf16) (a b : FVec Ideal S1x2048 .f32) (p : FVec Ideal S1x1 .f32) :
    k0_pay2 (F := Ideal) x0 w a b p
      = select (cmpf .ogt (aff0 x0 w a b) (broadcast S512x2048 (Scalar.ofBits (F := Ideal) .f32 0x00000000#32))) (aff0 x0 w a b)
          (mulf (broadcast S512x2048 (extractAt ![0, 0] p inpos_S1x1_p0_0)) (aff0 x0 w a b)) := rfl

theorem sx0_eq (x0 : FVec Ideal S512x512 .f32) : sx0 x0 = sgnM x0 := rfl

theorem be0_apply (x0 : FVec Ideal S512x512 .f32) (r : Fin 512) : be0 x0 (ix2 r (0 : Fin 1)) = rowMean d512 x0 r :=
  kernel_rowMean_apply x0 0x44000000#32 reduces_S512x512_S512 shapeCasts_S512_S512x1 r

theorem aff0_apply (x0 : FVec Ideal S512x512 .f32) (w : FVec Ideal S512x2048 .bf16) (a b : FVec Ideal S1x2048 .f32) (r : Fin 512) (n : Fin 2048) :
    aff0 x0 w a b (ix2 r n)
      = lin (sgnM x0) (rowMean d512 x0) w (fun n => a (ix2 (0 : Fin 1) n)) (fun n => b (ix2 (0 : Fin 1) n)) (ix2 r n) :=
  (kernel_lin_apply dot_S512x512_S512x2048_S512x2048_1_0_0_1_n_n rfl rfl d0_l0 d0_l1 d0_r0 d0_r1 (sx0 x0) (shapeCast S512x2048 w shapeCasts_S512x2048_S512x2048) (be0 x0)
      (shapeCast S1x2048 a shapeCasts_S1x2048_S1x2048) (shapeCast S1x2048 b shapeCasts_S1x2048_S1x2048)
      broadcasts_S512x1_S512x2048 broadcasts_S1x2048_S512x2048 r n).trans
    (congrFun (lin_congr (sx0_eq x0) (funext fun r => be0_apply x0 r) (shapeCast_self w shapeCasts_S512x2048_S512x2048)
      (funext fun n => congrFun (shapeCast_self a shapeCasts_S1x2048_S1x2048) _)
      (funext fun n => congrFun (shapeCast_self b shapeCasts_S1x2048_S1x2048) _)) (ix2 r n))

/-- The hidden block of the first kernel at `(r, n)`. -/
theorem pay2_apply (x0 : FVec Ideal S512x512 .f32) (w : FVec Ideal S512x2048 .bf16) (a b : FVec Ideal S1x2048 .f32)
    (p : FVec Ideal S1x1 .f32) (r : Fin 512) (n : Fin 2048) :
    k0_pay2 (F := Ideal) x0 w a b p (ix2 r n)
      = hidden (p (ix2 (0 : Fin 1) (0 : Fin 1))) (sgnM x0) (rowMean d512 x0) w (fun n => a (ix2 (0 : Fin 1) n))
          (fun n => b (ix2 (0 : Fin 1) n)) (ix2 r n) := by
  refine (congrFun (pay2_eq x0 w a b p) (ix2 r n)).trans ?_
  show prelu (extractAt ![0, 0] p inpos_S1x1_p0_0) (aff0 x0 w a b (ix2 r n)) = _
  rw [extract_one, aff0_apply]
  rfl

/-- The sign block of the first kernel is the entrywise sign of its hidden block. -/
theorem pay3_eq (x0 : FVec Ideal S512x512 .f32) (w : FVec Ideal S512x2048 .bf16) (a b : FVec Ideal S1x2048 .f32)
    (p : FVec Ideal S1x1 .f32) :
    k0_pay3 (F := Ideal) x0 w a b p = fun i => sgn (k0_pay2 (F := Ideal) x0 w a b p i) := by
  unfold k0_pay3
  exact kernel_sgn_eq (k0_pay2 (F := Ideal) x0 w a b p) bitsLt_bf16_f32

/-- The mean block of the first kernel at `(r, 0)`: the row mean of the hidden block's absolute values. -/
theorem pay1_apply (h : FVec Ideal S512x2048 .f32) (r : Fin 512) :
    k0_pay1 (F := Ideal) h (ix2 r (0 : Fin 1)) = rowMean d2048 h r :=
  kernel_rowMean_apply h 0x45000000#32 reduces_S512x2048_S512 shapeCasts_S512_S512x1 r

/-! ## The second kernel -/

/-- The affine part of the second kernel's layer. -/
def aff1 (sx : FVec Ideal S512x2048 .bf16) (be : FVec Ideal S512x1 .f32) (w : FVec Ideal S2048x2048 .bf16) (a b : FVec Ideal S1x2048 .f32) :
    FVec Ideal S512x2048 .f32 :=
  addf (mulf (mulf (matmul dot_S512x2048_S2048x2048_S512x2048_1_0_0_1_n_n none (shapeCast S512x2048 sx shapeCasts_S512x2048_S512x2048)
      (shapeCast S2048x2048 w shapeCasts_S2048x2048_S2048x2048) (constant (F := Ideal) S512x2048 .f32 0x00000000#32))
      (broadcastTo S512x2048 (shapeCast S512x1 be shapeCasts_S512x1_S512x1) broadcasts_S512x1_S512x2048))
    (broadcastTo S512x2048 (shapeCast S1x2048 a shapeCasts_S1x2048_S1x2048) broadcasts_S1x2048_S512x2048))
    (broadcastTo S512x2048 (shapeCast S1x2048 b shapeCasts_S1x2048_S1x2048) broadcasts_S1x2048_S512x2048)

theorem k1_pay1_eq (sx : FVec Ideal S512x2048 .bf16) (be : FVec Ideal S512x1 .f32) (w : FVec Ideal S2048x2048 .bf16)
    (a b : FVec Ideal S1x2048 .f32) (p : FVec Ideal S1x1 .f32) :
    k1_pay1 (F := Ideal) sx be w a b p
      = select (cmpf .ogt (aff1 sx be w a b) (broadcast S512x2048 (Scalar.ofBits (F := Ideal) .f32 0x00000000#32))) (aff1 sx be w a b)
          (mulf (broadcast S512x2048 (extractAt ![0, 0] p inpos_S1x1_p0_0)) (aff1 sx be w a b)) := rfl

theorem aff1_apply (sx : FVec Ideal S512x2048 .bf16) (be : FVec Ideal S512x1 .f32) (w : FVec Ideal S2048x2048 .bf16)
    (a b : FVec Ideal S1x2048 .f32) (r : Fin 512) (n : Fin 2048) :
    aff1 sx be w a b (ix2 r n)
      = lin sx (fun r => be (ix2 r (0 : Fin 1))) w (fun n => a (ix2 (0 : Fin 1) n)) (fun n => b (ix2 (0 : Fin 1) n)) (ix2 r n) :=
  (kernel_lin_apply dot_S512x2048_S2048x2048_S512x2048_1_0_0_1_n_n rfl rfl d1_l0 d1_l1 d1_r0 d1_r1 (shapeCast S512x2048 sx shapeCasts_S512x2048_S512x2048)
      (shapeCast S2048x2048 w shapeCasts_S2048x2048_S2048x2048) (shapeCast S512x1 be shapeCasts_S512x1_S512x1)
      (shapeCast S1x2048 a shapeCasts_S1x2048_S1x2048) (shapeCast S1x2048 b shapeCasts_S1x2048_S1x2048)
      broadcasts_S512x1_S512x2048 broadcasts_S1x2048_S512x2048 r n).trans
    (congrFun (lin_congr (shapeCast_self sx shapeCasts_S512x2048_S512x2048)
      (funext fun r => congrFun (shapeCast_self be shapeCasts_S512x1_S512x1) _) (shapeCast_self w shapeCasts_S2048x2048_S2048x2048)
      (funext fun n => congrFun (shapeCast_self a shapeCasts_S1x2048_S1x2048) _)
      (funext fun n => congrFun (shapeCast_self b shapeCasts_S1x2048_S1x2048) _)) (ix2 r n))

/-- The hidden block of the second kernel at `(r, n)`, from the row signs and row means it is handed. -/
theorem k1_pay1_apply (sx : FVec Ideal S512x2048 .bf16) (be : FVec Ideal S512x1 .f32) (w : FVec Ideal S2048x2048 .bf16)
    (a b : FVec Ideal S1x2048 .f32) (p : FVec Ideal S1x1 .f32) (r : Fin 512) (n : Fin 2048) :
    k1_pay1 (F := Ideal) sx be w a b p (ix2 r n)
      = hidden (p (ix2 (0 : Fin 1) (0 : Fin 1))) sx (fun r => be (ix2 r (0 : Fin 1))) w (fun n => a (ix2 (0 : Fin 1) n))
          (fun n => b (ix2 (0 : Fin 1) n)) (ix2 r n) := by
  refine (congrFun (k1_pay1_eq sx be w a b p) (ix2 r n)).trans ?_
  show prelu (extractAt ![0, 0] p inpos_S1x1_p0_0) (aff1 sx be w a b (ix2 r n)) = _
  rw [extract_one, aff1_apply]
  rfl

/-- The sign block of the second kernel is the entrywise sign of its hidden block. -/
theorem k1_pay2_eq (sx : FVec Ideal S512x2048 .bf16) (be : FVec Ideal S512x1 .f32) (w : FVec Ideal S2048x2048 .bf16)
    (a b : FVec Ideal S1x2048 .f32) (p : FVec Ideal S1x1 .f32) :
    k1_pay2 (F := Ideal) sx be w a b p = fun i => sgn (k1_pay1 (F := Ideal) sx be w a b p i) := by
  unfold k1_pay2
  exact kernel_sgn_eq (k1_pay1 (F := Ideal) sx be w a b p) bitsLt_bf16_f32

/-- The mean block of the second kernel at `(r, 0)`: the row mean of the hidden block's absolute values. -/
theorem k1_pay3_apply (sx : FVec Ideal S512x2048 .bf16) (be : FVec Ideal S512x1 .f32) (w : FVec Ideal S2048x2048 .bf16)
    (a b : FVec Ideal S1x2048 .f32) (p : FVec Ideal S1x1 .f32) (r : Fin 512) :
    k1_pay3 (F := Ideal) sx be w a b p (ix2 r (0 : Fin 1)) = rowMean d2048 (k1_pay1 (F := Ideal) sx be w a b p) r :=
  kernel_rowMean_apply (k1_pay1 (F := Ideal) sx be w a b p) 0x45000000#32 reduces_S512x2048_S512 shapeCasts_S512_S512x1 r

/-! ## The third kernel -/

/-- The output block of the third kernel at `(r, n)`, from the row signs and row means it is handed. -/
theorem k2_pay1_apply (sx : FVec Ideal S1024x2048 .bf16) (be : FVec Ideal S1024x1 .f32) (w : FVec Ideal S2048x512 .bf16)
    (a b : FVec Ideal S1x512 .f32) (r : Fin 1024) (n : Fin 512) :
    k2_pay1 (F := Ideal) sx be w a b (ix2 r n)
      = lin sx (fun r => be (ix2 r (0 : Fin 1))) w (fun n => a (ix2 (0 : Fin 1) n)) (fun n => b (ix2 (0 : Fin 1) n)) (ix2 r n) :=
  (kernel_lin_apply dot_S1024x2048_S2048x512_S1024x512_1_0_0_1_n_n rfl rfl d2_l0 d2_l1 d2_r0 d2_r1 (shapeCast S1024x2048 sx shapeCasts_S1024x2048_S1024x2048)
      (shapeCast S2048x512 w shapeCasts_S2048x512_S2048x512) (shapeCast S1024x1 be shapeCasts_S1024x1_S1024x1)
      (shapeCast S1x512 a shapeCasts_S1x512_S1x512) (shapeCast S1x512 b shapeCasts_S1x512_S1x512)
      broadcasts_S1024x1_S1024x512 broadcasts_S1x512_S1024x512 r n).trans
    (congrFun (lin_congr (shapeCast_self sx shapeCasts_S1024x2048_S1024x2048)
      (funext fun r => congrFun (shapeCast_self be shapeCasts_S1024x1_S1024x1) _) (shapeCast_self w shapeCasts_S2048x512_S2048x512)
      (funext fun n => congrFun (shapeCast_self a shapeCasts_S1x512_S1x512) _)
      (funext fun n => congrFun (shapeCast_self b shapeCasts_S1x512_S1x512) _)) (ix2 r n))

end Cert.KernelIdeal.Body

end
-- ==== Proof.Region0.lean ====
/-
  The first launch: what its two output arrays hold when it ends, as functions of the arrays it finds.

  The launch walks the 64 blocks of 512 rows. At block `t` it loads rows `512 t … 512 t + 511` of the input and the
  whole sign matrix, column scales, bias and slope, and writes back rows `512 t … 512 t + 511` of the sign array and
  of the row-mean column. Entry `(r, n)` of the hidden layer depends only on row `r` of the input, so each block the
  body computes is that block of rows of the whole hidden layer's sign and row mean; the blocks tile the arrays.
-/
import proofs.«136084_j28200755265763_2_alg».proof.Proof.PatchedFrameKI
import proofs.«136084_j28200755265763_2_alg».proof.Proof.Body

set_option maxRecDepth 16384

noncomputable section

namespace Cert.KernelIdeal.Region0

open Cert.KernelIdeal Cert.KernelIdeal.Gen Cert.KernelIdeal.GenP Cert.KernelIdeal.Body Cert.Xnor
open Idealize.ShloMosaic Idealize.ShloMosaic.TcCoe Idealize.ShloMosaic.ValueIdx Idealize.SL.Sem
open Idealize.ShloMosaic.Pipeline (Dat Cfg Window)

/-! ## One block, over plain arrays -/

/-- The hidden layer of the first launch from the arrays it finds. -/
def hid (X : Mat 32768 512) (SW : Mat 512 2048) (AL BI : Mat 1 2048) (PR : Mat 1 1) : Mat 32768 2048 :=
  hidden (PR (ix2 (0 : Fin 1) (0 : Fin 1))) (sgnM X) (rowMean d512 X) SW (fun n => AL (ix2 (0 : Fin 1) n)) (fun n => BI (ix2 (0 : Fin 1) n))

/-- The hidden block the body computes from rows `o … o + 511` of the input is those rows of the whole hidden layer. -/
theorem block_hid (X : Mat 32768 512) (SW : Mat 512 2048) (AL BI : Mat 1 2048) (PR : Mat 1 1)
    (x0 : FVec Ideal S512x512 .f32) (o : ℕ) (ho : o + 512 ≤ 32768)
    (hx : ∀ (r : Fin 512) (k : Fin 512), x0 (ix2 r k) = X (ix2 ⟨o + r.val, by omega⟩ k))
    (r : Fin 512) (n : Fin 2048) :
    k0_pay2 (F := Ideal) x0 SW AL BI PR (ix2 r n) = hid X SW AL BI PR (ix2 ⟨o + r.val, by omega⟩ n) := by
  rw [pay2_apply]
  show prelu _ (lin (sgnM x0) (rowMean d512 x0) SW _ _ (ix2 r n)) = prelu _ (lin (sgnM X) (rowMean d512 X) SW _ _ (ix2 ⟨o + r.val, by omega⟩ n))
  refine congrArg (prelu _) (lin_row_congr SW _ _ n (fun k => ?_) (rowMean_row_congr d512 (fun k => hx r k)))
  show sgn (x0 (ix2 r k)) = sgn (X (ix2 ⟨o + r.val, by omega⟩ k))
  rw [hx r k]

/-! ## The launch's blocks -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the input and the two outputs at block row `t`, the rest at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The arrays the launch finds. -/
abbrev X (c : Dev nD) : Mat 32768 512 := V c main_arg0
abbrev SW (c : Dev nD) : Mat 512 2048 := V c main_call0_v8
abbrev AL (c : Dev nD) : Mat 1 2048 := V c main_call0_v9
abbrev BI (c : Dev nD) : Mat 1 2048 := V c main_call0_v10
abbrev PR (c : Dev nD) : Mat 1 1 := V c main_call0_v11

theorem tlt (t : Fin cfg0.N) : t.val < 64 := t.isLt

/-- The input block at point `t` is rows `512 t …` of the input. -/
theorem iblk_x (c : Dev nD) (t : Fin cfg0.N) (r : Fin 512) (k : Fin 512) :
    iblk0 V c 0 t (ix2 r k) = X V c (ix2 ⟨t.val * 512 + r.val, by have := tlt t; have := r.isLt; omega⟩ k) := by
  obtain ⟨e00, e01, -⟩ := idx_facts t
  show V c main_arg0 (((cfg0.win 0).blk t).view.emb (ix2 r k)) = V c main_arg0 (ix2 ⟨t.val * 512 + r.val, _⟩ k)
  refine congrArg (V c main_arg0) (funext fun a => Fin.ext ?_)
  match a with
  | ⟨0, _⟩ => show win0_0.index t (0 : Fin 2) * 512 + 1 * r.val = t.val * 512 + r.val; omega
  | ⟨1, _⟩ => show win0_0.index t (1 : Fin 2) * 512 + 1 * k.val = k.val; omega

/-- The windows that do not move with the grid hold their whole arrays at every point. -/
theorem iblk_sw (c : Dev nD) (t : Fin cfg0.N) : iblk0 V c 1 t = SW V c := by
  obtain ⟨-, -, e10, e11, -⟩ := idx_facts t
  funext y
  show V c main_call0_v8 (((cfg0.win 1).blk t).view.emb y) = V c main_call0_v8 y
  refine congrArg (V c main_call0_v8) (funext fun a => Fin.ext ?_)
  match a with
  | ⟨0, _⟩ => show win0_1.index t (0 : Fin 2) * 512 + 1 * (y 0).val = (y 0).val; omega
  | ⟨1, _⟩ => show win0_1.index t (1 : Fin 2) * 2048 + 1 * (y 1).val = (y 1).val; omega
theorem iblk_al (c : Dev nD) (t : Fin cfg0.N) : iblk0 V c 2 t = AL V c := by
  obtain ⟨-, -, -, -, e20, e21, -⟩ := idx_facts t
  funext y
  show V c main_call0_v9 (((cfg0.win 2).blk t).view.emb y) = V c main_call0_v9 y
  refine congrArg (V c main_call0_v9) (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega
theorem iblk_bi (c : Dev nD) (t : Fin cfg0.N) : iblk0 V c 3 t = BI V c := by
  obtain ⟨-, -, -, -, -, -, e30, e31, -⟩ := idx_facts t
  funext y
  show V c main_call0_v10 (((cfg0.win 3).blk t).view.emb y) = V c main_call0_v10 y
  refine congrArg (V c main_call0_v10) (funext fun a => Fin.ext ?_)
  match a with
  | ⟨0, _⟩ => show win0_3.index t (0 : Fin 2) * 1 + 1 * (y 0).val = (y 0).val; omega
  | ⟨1, _⟩ => show win0_3.index t (1 : Fin 2) * 2048 + 1 * (y 1).val = (y 1).val; omega
theorem iblk_pr (c : Dev nD) (t : Fin cfg0.N) : iblk0 V c 4 t = PR V c := by
  obtain ⟨-, -, -, -, -, -, -, -, e40, e41, -⟩ := idx_facts t
  funext y
  show V c main_call0_v11 (((cfg0.win 4).blk t).view.emb y) = V c main_call0_v11 y
  refine congrArg (V c main_call0_v11) (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

/-- The hidden block at point `t`, read at `(r, n)`: row `512 t + r` of the whole hidden layer. -/
theorem hid_blk (c : Dev nD) (t : Fin cfg0.N) (r : Fin 512) (n : Fin 2048) :
    k0_pay2 (F := Ideal) (iblk0 V c 0 t) (iblk0 V c 1 t) (iblk0 V c 2 t) (iblk0 V c 3 t) (iblk0 V c 4 t) (ix2 r n)
      = hid (X V c) (SW V c) (AL V c) (BI V c) (PR V c) (ix2 ⟨t.val * 512 + r.val, by have := tlt t; have := r.isLt; omega⟩ n) := by
  rw [iblk_sw, iblk_al, iblk_bi, iblk_pr]
  exact block_hid (X V c) (SW V c) (AL V c) (BI V c) (PR V c) (iblk0 V c 0 t) (t.val * 512) (by have := tlt t; omega)
    (fun r k => iblk_x V c t r k) r n

/-- What point `t` writes back to the sign array is its block of the whole hidden layer's sign. -/
theorem flushed5_eq (c : Dev nD) (t : Fin cfg0.N) :
    (dat0 V c).flushed 5 t = ((cfg0.win 5).blk t).view.read (Elt Ideal) (sgnM (hid (X V c) (SW V c) (AL V c) (BI V c) (PR V c))) := by
  show (cfg0.win 5).cut (grid0.coords t) ((dat0 V c).after 5 t) = _
  rw [after0_5]
  unfold out0_5
  rw [View.canon_unit_zero hz]
  simp only [View.ld_unit_zero (S := S512x512) hz, View.ld_unit_zero (S := S512x2048) hz, View.ld_unit_zero (S := S1x2048) hz, View.ld_unit_zero (S := S1x1) hz]
  obtain ⟨-, -, -, -, -, -, -, -, -, -, e50, e51, -⟩ := idx_facts t
  funext j
  obtain ⟨r, n, rfl⟩ : ∃ (r : Fin 512) (n : Fin 2048), j = ix2 r n := ⟨j 0, j 1, eq_ix2 j⟩
  show k0_pay3 (F := Ideal) (iblk0 V c 0 t) (iblk0 V c 1 t) (iblk0 V c 2 t) (iblk0 V c 3 t) (iblk0 V c 4 t) (ix2 r n)
    = sgnM (hid (X V c) (SW V c) (AL V c) (BI V c) (PR V c)) (((cfg0.win 5).blk t).view.emb (ix2 r n))
  have hemb : ((cfg0.win 5).blk t).view.emb (ix2 r n)
      = ix2 (⟨t.val * 512 + r.val, by have := tlt t; have := r.isLt; omega⟩ : Fin 32768) n := by
    funext a; apply Fin.ext
    match a with
    | ⟨0, _⟩ => show win0_5.index t (0 : Fin 2) * 512 + 1 * r.val = t.val * 512 + r.val; omega
    | ⟨1, _⟩ => show win0_5.index t (1 : Fin 2) * 2048 + 1 * n.val = n.val; omega
  rw [hemb, pay3_eq]
  exact congrArg sgn (hid_blk V c t r n)

/-- What point `t` writes back to the row-mean column is its block of the whole hidden layer's row means. -/
theorem flushed6_eq (c : Dev nD) (t : Fin cfg0.N) :
    (dat0 V c).flushed 6 t
      = ((cfg0.win 6).blk t).view.read (Elt Ideal) (colOf (rowMean d2048 (hid (X V c) (SW V c) (AL V c) (BI V c) (PR V c)))) := by
  show (cfg0.win 6).cut (grid0.coords t) ((dat0 V c).after 6 t) = _
  rw [after0_6]
  unfold out0_6
  rw [View.canon_unit_zero hz]
  simp only [View.ld_unit_zero (S := S512x512) hz, View.ld_unit_zero (S := S512x2048) hz, View.ld_unit_zero (S := S1x2048) hz, View.ld_unit_zero (S := S1x1) hz]
  obtain ⟨-, -, -, -, -, -, -, -, -, -, -, -, e60, e61⟩ := idx_facts t
  funext j
  obtain ⟨r, z, rfl⟩ : ∃ (r : Fin 512) (z : Fin 1), j = ix2 r z := ⟨j 0, j 1, eq_ix2 j⟩
  obtain rfl : z = 0 := Subsingleton.elim _ _
  show k0_pay1 (F := Ideal) (k0_pay2 (F := Ideal) (iblk0 V c 0 t) (iblk0 V c 1 t) (iblk0 V c 2 t) (iblk0 V c 3 t) (iblk0 V c 4 t)) (ix2 r (0 : Fin 1))
    = colOf (rowMean d2048 (hid (X V c) (SW V c) (AL V c) (BI V c) (PR V c))) (((cfg0.win 6).blk t).view.emb (ix2 r (0 : Fin 1)))
  have hemb : ((cfg0.win 6).blk t).view.emb (ix2 r (0 : Fin 1))
      = ix2 (⟨t.val * 512 + r.val, by have := tlt t; have := r.isLt; omega⟩ : Fin 32768) (0 : Fin 1) := by
    funext a; apply Fin.ext
    match a with
    | ⟨0, _⟩ => show win0_6.index t (0 : Fin 2) * 512 + 1 * r.val = t.val * 512 + r.val; omega
    | ⟨1, _⟩ => show win0_6.index t (1 : Fin 2) * 1 + 1 * 0 = 0; omega
  rw [hemb, pay1_apply, colOf_apply]
  exact rowMean_row_congr d2048 (fun n => hid_blk V c t r n)

/-! ## The blocks tile the arrays -/

theorem mem_blk5 (t : Fin cfg0.N) (i : S32768x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_call0_v12_0).slice (win0_5.rect t)).set ↔ _
  rw [View.set_slice_whole, Rect.mem_set_unit]
  exact Iff.rfl

theorem mem_blk6 (t : Fin cfg0.N) (i : S32768x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_call0_v12_1).slice (win0_6.rect t)).set ↔ _
  rw [View.set_slice_whole, Rect.mem_set_unit]
  exact Iff.rfl

/-- Row `i` of the sign array lies in the block of point `i / 512`. -/
theorem cover5 (i : S32768x2048.Idx) : ∃ t : Fin cfg0.N, (cfg0.win 5).flush t = true ∧ i ∈ ((cfg0.win 5).blk t).view.set := by
  have hi0 : (i 0).val < 32768 := (i 0).isLt
  have hi1 : (i 1).val < 2048 := (i 1).isLt
  obtain ⟨t, ht⟩ : ∃ t : Fin cfg0.N, t.val = (i 0).val / 512 := ⟨⟨(i 0).val / 512, by show (i 0).val / 512 < 64; omega⟩, rfl⟩
  obtain ⟨-, -, -, -, -, -, -, -, -, -, e50, e51, -⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

theorem cover6 (i : S32768x1.Idx) : ∃ t : Fin cfg0.N, (cfg0.win 6).flush t = true ∧ i ∈ ((cfg0.win 6).blk t).view.set := by
  have hi0 : (i 0).val < 32768 := (i 0).isLt
  have hi1 : (i 1).val < 1 := (i 1).isLt
  obtain ⟨t, ht⟩ : ∃ t : Fin cfg0.N, t.val = (i 0).val / 512 := ⟨⟨(i 0).val / 512, by show (i 0).val / 512 < 64; omega⟩, rfl⟩
  obtain ⟨-, -, -, -, -, -, -, -, -, -, -, -, e60, e61⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1 ≤ (i 1).val ∧ (i 1).val < win0_6.index t (1 : Fin 2) * 1 + 1; omega

/-! ## The two output arrays when the launch ends -/

/-- The sign array ends as the entrywise sign of the hidden layer. -/
theorem final5 (c : Dev nD) :
    (dat0 V c).arrAt 5 cfg0.N = sgnM (hid (X V c) (SW V c) (AL V c) (BI V c) (PR V c)) :=
  (dat0 V c).arrAt_eq_of_cover 5 _ (fun t _ => flushed5_eq V c t) cover5

/-- The row-mean column ends as the hidden layer's row means of absolute values. -/
theorem final6 (c : Dev nD) :
    (dat0 V c).arrAt 6 cfg0.N = colOf (rowMean d2048 (hid (X V c) (SW V c) (AL V c) (BI V c) (PR V c))) :=
  (dat0 V c).arrAt_eq_of_cover 6 _ (fun t _ => flushed6_eq V c t) cover6

end Cert.KernelIdeal.Region0

end
-- ==== Proof.Region1.lean ====
/-
  The second launch: what its two output arrays hold when it ends, as functions of the arrays it finds.

  The launch walks the 64 blocks of 512 rows. At block `t` it loads rows `512 t … 512 t + 511` of the sign array and
  of the row-mean column it is handed, and the whole sign matrix, column scales, bias and slope, and writes back the
  same rows of the new sign array and of the new row-mean column. Entry `(r, n)` of the hidden layer depends only
  on row `r` of the signs and on the mean of row `r`, so each block the body computes is that block of rows of the
  whole hidden layer's sign and row mean; the blocks tile the arrays.
-/
import proofs.«136084_j28200755265763_2_alg».proof.Proof.PatchedFrameKI
import proofs.«136084_j28200755265763_2_alg».proof.Proof.Body

set_option maxRecDepth 16384

noncomputable section

namespace Cert.KernelIdeal.Region1

open Cert.KernelIdeal Cert.KernelIdeal.Gen Cert.KernelIdeal.GenP Cert.KernelIdeal.Body Cert.Xnor
open Idealize.ShloMosaic Idealize.ShloMosaic.TcCoe Idealize.ShloMosaic.ValueIdx Idealize.SL.Sem
open Idealize.ShloMosaic.Pipeline (Dat Cfg Window)

/-! ## One block, over plain arrays -/

/-- The hidden layer of the second launch from the arrays it finds. -/
def hid (SX : Mat 32768 2048) (BE : Mat 32768 1) (SW : Mat 2048 2048) (AL BI : Mat 1 2048) (PR : Mat 1 1) : Mat 32768 2048 :=
  hidden (PR (ix2 (0 : Fin 1) (0 : Fin 1))) SX (fun r => BE (ix2 r (0 : Fin 1))) SW (fun n => AL (ix2 (0 : Fin 1) n))
    (fun n => BI (ix2 (0 : Fin 1) n))

/-- The hidden block the body computes from rows `o … o + 511` of the signs and means is those rows of the whole hidden layer. -/
theorem block_hid (SX : Mat 32768 2048) (BE : Mat 32768 1) (SW : Mat 2048 2048) (AL BI : Mat 1 2048) (PR : Mat 1 1)
    (sx : FVec Ideal S512x2048 .bf16) (be : FVec Ideal S512x1 .f32) (o : ℕ) (ho : o + 512 ≤ 32768)
    (hx : ∀ (r : Fin 512) (k : Fin 2048), sx (ix2 r k) = SX (ix2 ⟨o + r.val, by omega⟩ k))
    (hb : ∀ (r : Fin 512), be (ix2 r (0 : Fin 1)) = BE (ix2 ⟨o + r.val, by omega⟩ (0 : Fin 1)))
    (r : Fin 512) (n : Fin 2048) :
    k1_pay1 (F := Ideal) sx be SW AL BI PR (ix2 r n) = hid SX BE SW AL BI PR (ix2 ⟨o + r.val, by omega⟩ n) := by
  rw [k1_pay1_apply]
  show prelu _ (lin sx (fun r => be (ix2 r (0 : Fin 1))) SW _ _ (ix2 r n))
    = prelu _ (lin SX (fun r => BE (ix2 r (0 : Fin 1))) SW _ _ (ix2 ⟨o + r.val, by omega⟩ n))
  exact congrArg (prelu _) (lin_row_congr SW _ _ n (fun k => hx r k) (hb r))

/-! ## The launch's blocks -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the two inputs and the two outputs that move at block row `t`, the
    rest at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The arrays the launch finds. -/
abbrev SX (c : Dev nD) : Mat 32768 2048 := V c main_call0_v12_0
abbrev BE (c : Dev nD) : Mat 32768 1 := V c main_call0_v12_1
abbrev SW (c : Dev nD) : Mat 2048 2048 := V c main_call0_v21
abbrev AL (c : Dev nD) : Mat 1 2048 := V c main_call0_v22
abbrev BI (c : Dev nD) : Mat 1 2048 := V c main_call0_v23
abbrev PR (c : Dev nD) : Mat 1 1 := V c main_call0_v24

theorem tlt (t : Fin cfg1.N) : t.val < 64 := t.isLt

/-- The sign block at point `t` is rows `512 t …` of the sign array. -/
theorem iblk_sx (c : Dev nD) (t : Fin cfg1.N) (r : Fin 512) (k : Fin 2048) :
    iblk1 V c 0 t (ix2 r k) = SX V c (ix2 ⟨t.val * 512 + r.val, by have := tlt t; have := r.isLt; omega⟩ k) := by
  obtain ⟨e00, e01, -⟩ := idx_facts t
  show V c main_call0_v12_0 (((cfg1.win 0).blk t).view.emb (ix2 r k)) = V c main_call0_v12_0 (ix2 ⟨t.val * 512 + r.val, _⟩ k)
  refine congrArg (V c main_call0_v12_0) (funext fun a => Fin.ext ?_)
  match a with
  | ⟨0, _⟩ => show win1_0.index t (0 : Fin 2) * 512 + 1 * r.val = t.val * 512 + r.val; omega
  | ⟨1, _⟩ => show win1_0.index t (1 : Fin 2) * 2048 + 1 * k.val = k.val; omega

/-- The row-mean block at point `t` is rows `512 t …` of the row-mean column. -/
theorem iblk_be (c : Dev nD) (t : Fin cfg1.N) (r : Fin 512) :
    iblk1 V c 1 t (ix2 r (0 : Fin 1)) = BE V c (ix2 ⟨t.val * 512 + r.val, by have := tlt t; have := r.isLt; omega⟩ (0 : Fin 1)) := by
  obtain ⟨-, -, e10, e11, -⟩ := idx_facts t
  show V c main_call0_v12_1 (((cfg1.win 1).blk t).view.emb (ix2 r (0 : Fin 1))) = V c main_call0_v12_1 (ix2 ⟨t.val * 512 + r.val, _⟩ (0 : Fin 1))
  refine congrArg (V c main_call0_v12_1) (funext fun a => Fin.ext ?_)
  match a with
  | ⟨0, _⟩ => show win1_1.index t (0 : Fin 2) * 512 + 1 * r.val = t.val * 512 + r.val; omega
  | ⟨1, _⟩ => show win1_1.index t (1 : Fin 2) * 1 + 1 * 0 = 0; omega

/-- The windows that do not move with the grid hold their whole arrays at every point. -/
theorem iblk_sw (c : Dev nD) (t : Fin cfg1.N) : iblk1 V c 2 t = SW V c := by
  obtain ⟨-, -, -, -, e20, e21, -⟩ := idx_facts t
  funext y
  show V c main_call0_v21 (((cfg1.win 2).blk t).view.emb y) = V c main_call0_v21 y
  refine congrArg (V c main_call0_v21) (funext fun a => Fin.ext ?_)
  match a with
  | ⟨0, _⟩ => show win1_2.index t (0 : Fin 2) * 2048 + 1 * (y 0).val = (y 0).val; omega
  | ⟨1, _⟩ => show win1_2.index t (1 : Fin 2) * 2048 + 1 * (y 1).val = (y 1).val; omega
theorem iblk_al (c : Dev nD) (t : Fin cfg1.N) : iblk1 V c 3 t = AL V c := by
  obtain ⟨-, -, -, -, -, -, e30, e31, -⟩ := idx_facts t
  funext y
  show V c main_call0_v22 (((cfg1.win 3).blk t).view.emb y) = V c main_call0_v22 y
  refine congrArg (V c main_call0_v22) (funext fun a => Fin.ext ?_)
  match a with
  | ⟨0, _⟩ => show win1_3.index t (0 : Fin 2) * 1 + 1 * (y 0).val = (y 0).val; omega
  | ⟨1, _⟩ => show win1_3.index t (1 : Fin 2) * 2048 + 1 * (y 1).val = (y 1).val; omega
theorem iblk_bi (c : Dev nD) (t : Fin cfg1.N) : iblk1 V c 4 t = BI V c := by
  obtain ⟨-, -, -, -, -, -, -, -, e40, e41, -⟩ := idx_facts t
  funext y
  show V c main_call0_v23 (((cfg1.win 4).blk t).view.emb y) = V c main_call0_v23 y
  refine congrArg (V c main_call0_v23) (funext fun a => Fin.ext ?_)
  match a with
  | ⟨0, _⟩ => show win1_4.index t (0 : Fin 2) * 1 + 1 * (y 0).val = (y 0).val; omega
  | ⟨1, _⟩ => show win1_4.index t (1 : Fin 2) * 2048 + 1 * (y 1).val = (y 1).val; omega
theorem iblk_pr (c : Dev nD) (t : Fin cfg1.N) : iblk1 V c 5 t = PR V c := by
  obtain ⟨-, -, -, -, -, -, -, -, -, -, e50, e51, -⟩ := idx_facts t
  funext y
  show V c main_call0_v24 (((cfg1.win 5).blk t).view.emb y) = V c main_call0_v24 y
  refine congrArg (V c main_call0_v24) (funext fun a => Fin.ext ?_)
  match a with
  | ⟨0, _⟩ => show win1_5.index t (0 : Fin 2) * 1 + 1 * (y 0).val = (y 0).val; omega
  | ⟨1, _⟩ => show win1_5.index t (1 : Fin 2) * 1 + 1 * (y 1).val = (y 1).val; omega

/-- The hidden block at point `t`, read at `(r, n)`: row `512 t + r` of the whole hidden layer. -/
theorem hid_blk (c : Dev nD) (t : Fin cfg1.N) (r : Fin 512) (n : Fin 2048) :
    k1_pay1 (F := Ideal) (iblk1 V c 0 t) (iblk1 V c 1 t) (iblk1 V c 2 t) (iblk1 V c 3 t) (iblk1 V c 4 t) (iblk1 V c 5 t) (ix2 r n)
      = hid (SX V c) (BE V c) (SW V c) (AL V c) (BI V c) (PR V c) (ix2 ⟨t.val * 512 + r.val, by have := tlt t; have := r.isLt; omega⟩ n) := by
  rw [iblk_sw, iblk_al, iblk_bi, iblk_pr]
  exact block_hid (SX V c) (BE V c) (SW V c) (AL V c) (BI V c) (PR V c) (iblk1 V c 0 t) (iblk1 V c 1 t) (t.val * 512)
    (by have := tlt t; omega) (fun r k => iblk_sx V c t r k) (fun r => iblk_be V c t r) r n

/-- What point `t` writes back to the sign array is its block of the whole hidden layer's sign. -/
theorem flushed6_eq (c : Dev nD) (t : Fin cfg1.N) :
    (dat1 V c).flushed 6 t
      = ((cfg1.win 6).blk t).view.read (Elt Ideal) (sgnM (hid (SX V c) (BE V c) (SW V c) (AL V c) (BI V c) (PR V c))) := by
  show (cfg1.win 6).cut (grid1.coords t) ((dat1 V c).after 6 t) = _
  rw [after1_6]
  unfold out1_6
  rw [View.canon_unit_zero hz]
  simp only [View.ld_unit_zero (S := S512x2048) hz, View.ld_unit_zero (S := S512x1) hz, View.ld_unit_zero (S := S2048x2048) hz, View.ld_unit_zero (S := S1x2048) hz, View.ld_unit_zero (S := S1x1) hz]
  obtain ⟨-, -, -, -, -, -, -, -, -, -, -, -, e60, e61, -⟩ := idx_facts t
  funext j
  obtain ⟨r, n, rfl⟩ : ∃ (r : Fin 512) (n : Fin 2048), j = ix2 r n := ⟨j 0, j 1, eq_ix2 j⟩
  show k1_pay2 (F := Ideal) (iblk1 V c 0 t) (iblk1 V c 1 t) (iblk1 V c 2 t) (iblk1 V c 3 t) (iblk1 V c 4 t) (iblk1 V c 5 t) (ix2 r n)
    = sgnM (hid (SX V c) (BE V c) (SW V c) (AL V c) (BI V c) (PR V c)) (((cfg1.win 6).blk t).view.emb (ix2 r n))
  have hemb : ((cfg1.win 6).blk t).view.emb (ix2 r n)
      = ix2 (⟨t.val * 512 + r.val, by have := tlt t; have := r.isLt; omega⟩ : Fin 32768) n := by
    funext a; apply Fin.ext
    match a with
    | ⟨0, _⟩ => show win1_6.index t (0 : Fin 2) * 512 + 1 * r.val = t.val * 512 + r.val; omega
    | ⟨1, _⟩ => show win1_6.index t (1 : Fin 2) * 2048 + 1 * n.val = n.val; omega
  rw [hemb, k1_pay2_eq]
  exact congrArg sgn (hid_blk V c t r n)

/-- What point `t` writes back to the row-mean column is its block of the whole hidden layer's row means. -/
theorem flushed7_eq (c : Dev nD) (t : Fin cfg1.N) :
    (dat1 V c).flushed 7 t
      = ((cfg1.win 7).blk t).view.read (Elt Ideal) (colOf (rowMean d2048 (hid (SX V c) (BE V c) (SW V c) (AL V c) (BI V c) (PR V c)))) := by
  show (cfg1.win 7).cut (grid1.coords t) ((dat1 V c).after 7 t) = _
  rw [after1_7]
  unfold out1_7
  rw [View.canon_unit_zero hz]
  simp only [View.ld_unit_zero (S := S512x2048) hz, View.ld_unit_zero (S := S512x1) hz, View.ld_unit_zero (S := S2048x2048) hz, View.ld_unit_zero (S := S1x2048) hz, View.ld_unit_zero (S := S1x1) hz]
  obtain ⟨-, -, -, -, -, -, -, -, -, -, -, -, -, -, e70, e71⟩ := idx_facts t
  funext j
  obtain ⟨r, z, rfl⟩ : ∃ (r : Fin 512) (z : Fin 1), j = ix2 r z := ⟨j 0, j 1, eq_ix2 j⟩
  obtain rfl : z = 0 := Subsingleton.elim _ _
  show k1_pay3 (F := Ideal) (iblk1 V c 0 t) (iblk1 V c 1 t) (iblk1 V c 2 t) (iblk1 V c 3 t) (iblk1 V c 4 t) (iblk1 V c 5 t) (ix2 r (0 : Fin 1))
    = colOf (rowMean d2048 (hid (SX V c) (BE V c) (SW V c) (AL V c) (BI V c) (PR V c))) (((cfg1.win 7).blk t).view.emb (ix2 r (0 : Fin 1)))
  have hemb : ((cfg1.win 7).blk t).view.emb (ix2 r (0 : Fin 1))
      = ix2 (⟨t.val * 512 + r.val, by have := tlt t; have := r.isLt; omega⟩ : Fin 32768) (0 : Fin 1) := by
    funext a; apply Fin.ext
    match a with
    | ⟨0, _⟩ => show win1_7.index t (0 : Fin 2) * 512 + 1 * r.val = t.val * 512 + r.val; omega
    | ⟨1, _⟩ => show win1_7.index t (1 : Fin 2) * 1 + 1 * 0 = 0; omega
  rw [hemb, k1_pay3_apply, colOf_apply]
  exact rowMean_row_congr d2048 (fun n => hid_blk V c t r n)

/-! ## The blocks tile the arrays -/

theorem mem_blk6 (t : Fin cfg1.N) (i : S32768x2048.Idx) :
    i ∈ ((cfg1.win 6).blk t).view.set ↔ ∀ a : Fin 2, win1_6.index t a * S512x2048.size a ≤ (i a).val ∧ (i a).val < win1_6.index t a * S512x2048.size a + S512x2048.size a := by
  show i ∈ ((View.whole main_call0_v25_0).slice (win1_6.rect t)).set ↔ _
  rw [View.set_slice_whole, Rect.mem_set_unit]
  exact Iff.rfl

theorem mem_blk7 (t : Fin cfg1.N) (i : S32768x1.Idx) :
    i ∈ ((cfg1.win 7).blk t).view.set ↔ ∀ a : Fin 2, win1_7.index t a * S512x1.size a ≤ (i a).val ∧ (i a).val < win1_7.index t a * S512x1.size a + S512x1.size a := by
  show i ∈ ((View.whole main_call0_v25_1).slice (win1_7.rect t)).set ↔ _
  rw [View.set_slice_whole, Rect.mem_set_unit]
  exact Iff.rfl

/-- Row `i` of the sign array lies in the block of point `i / 512`. -/
theorem cover6 (i : S32768x2048.Idx) : ∃ t : Fin cfg1.N, (cfg1.win 6).flush t = true ∧ i ∈ ((cfg1.win 6).blk t).view.set := by
  have hi0 : (i 0).val < 32768 := (i 0).isLt
  have hi1 : (i 1).val < 2048 := (i 1).isLt
  obtain ⟨t, ht⟩ : ∃ t : Fin cfg1.N, t.val = (i 0).val / 512 := ⟨⟨(i 0).val / 512, by show (i 0).val / 512 < 64; omega⟩, rfl⟩
  obtain ⟨-, -, -, -, -, -, -, -, -, -, -, -, e60, e61, -⟩ := idx_facts t
  refine ⟨t, flush1_6 t, ?_⟩
  rw [mem_blk6]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 2048 ≤ (i 1).val ∧ (i 1).val < win1_6.index t (1 : Fin 2) * 2048 + 2048; omega

theorem cover7 (i : S32768x1.Idx) : ∃ t : Fin cfg1.N, (cfg1.win 7).flush t = true ∧ i ∈ ((cfg1.win 7).blk t).view.set := by
  have hi0 : (i 0).val < 32768 := (i 0).isLt
  have hi1 : (i 1).val < 1 := (i 1).isLt
  obtain ⟨t, ht⟩ : ∃ t : Fin cfg1.N, t.val = (i 0).val / 512 := ⟨⟨(i 0).val / 512, by show (i 0).val / 512 < 64; omega⟩, rfl⟩
  obtain ⟨-, -, -, -, -, -, -, -, -, -, -, -, -, -, e70, e71⟩ := idx_facts t
  refine ⟨t, flush1_7 t, ?_⟩
  rw [mem_blk7]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 1 ≤ (i 1).val ∧ (i 1).val < win1_7.index t (1 : Fin 2) * 1 + 1; omega

/-! ## The two output arrays when the launch ends -/

/-- The sign array ends as the entrywise sign of the hidden layer. -/
theorem final6 (c : Dev nD) :
    (dat1 V c).arrAt 6 cfg1.N = sgnM (hid (SX V c) (BE V c) (SW V c) (AL V c) (BI V c) (PR V c)) :=
  (dat1 V c).arrAt_eq_of_cover 6 _ (fun t _ => flushed6_eq V c t) cover6

/-- The row-mean column ends as the hidden layer's row means of absolute values. -/
theorem final7 (c : Dev nD) :
    (dat1 V c).arrAt 7 cfg1.N = colOf (rowMean d2048 (hid (SX V c) (BE V c) (SW V c) (AL V c) (BI V c) (PR V c))) :=
  (dat1 V c).arrAt_eq_of_cover 7 _ (fun t _ => flushed7_eq V c t) cover7

end Cert.KernelIdeal.Region1

end
-- ==== Proof.Region2.lean ====
/-
  The third launch: what its output array holds when it ends, as a function of the arrays it finds.

  The launch walks the 32 blocks of 1024 rows. At block `t` it loads rows `1024 t … 1024 t + 1023` of the sign array
  and of the row-mean column it is handed, and the whole sign matrix, column scales and bias, and writes back the same
  rows of the output. Entry `(r, n)` of the linear layer depends only on row `r` of the signs and on the mean of row
  `r`, so each block the body computes is that block of rows of the whole layer; the blocks tile the output.
-/
import proofs.«136084_j28200755265763_2_alg».proof.Proof.PatchedFrameKI
import proofs.«136084_j28200755265763_2_alg».proof.Proof.Body

set_option maxRecDepth 16384

noncomputable section

namespace Cert.KernelIdeal.Region2

open Cert.KernelIdeal Cert.KernelIdeal.Gen Cert.KernelIdeal.GenP Cert.KernelIdeal.Body Cert.Xnor
open Idealize.ShloMosaic Idealize.ShloMosaic.TcCoe Idealize.ShloMosaic.ValueIdx Idealize.SL.Sem
open Idealize.ShloMosaic.Pipeline (Dat Cfg Window)

/-! ## One block, over plain arrays -/

/-- The output layer of the third launch from the arrays it finds. -/
def out (SX : Mat 32768 2048) (BE : Mat 32768 1) (SW : Mat 2048 512) (AL BI : Mat 1 512) : Mat 32768 512 :=
  lin SX (fun r => BE (ix2 r (0 : Fin 1))) SW (fun n => AL (ix2 (0 : Fin 1) n)) (fun n => BI (ix2 (0 : Fin 1) n))

/-- The block the body computes from rows `o … o + 1023` of the signs and means is those rows of the whole layer. -/
theorem block_out (SX : Mat 32768 2048) (BE : Mat 32768 1) (SW : Mat 2048 512) (AL BI : Mat 1 512)
    (sx : FVec Ideal S1024x2048 .bf16) (be : FVec Ideal S1024x1 .f32) (o : ℕ) (ho : o + 1024 ≤ 32768)
    (hx : ∀ (r : Fin 1024) (k : Fin 2048), sx (ix2 r k) = SX (ix2 ⟨o + r.val, by omega⟩ k))
    (hb : ∀ (r : Fin 1024), be (ix2 r (0 : Fin 1)) = BE (ix2 ⟨o + r.val, by omega⟩ (0 : Fin 1)))
    (r : Fin 1024) (n : Fin 512) :
    k2_pay1 (F := Ideal) sx be SW AL BI (ix2 r n) = out SX BE SW AL BI (ix2 ⟨o + r.val, by omega⟩ n) := by
  rw [k2_pay1_apply]
  exact lin_row_congr SW _ _ n (fun k => hx r k) (hb r)

/-! ## The launch's blocks -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the two inputs that move and the output at block row `t`, the rest
    at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The arrays the launch finds. -/
abbrev SX (c : Dev nD) : Mat 32768 2048 := V c main_call0_v25_0
abbrev BE (c : Dev nD) : Mat 32768 1 := V c main_call0_v25_1
abbrev SW (c : Dev nD) : Mat 2048 512 := V c main_call0_v34
abbrev AL (c : Dev nD) : Mat 1 512 := V c main_call0_v35
abbrev BI (c : Dev nD) : Mat 1 512 := V c main_call0_v36

theorem tlt (t : Fin cfg2.N) : t.val < 32 := t.isLt

/-- The sign block at point `t` is rows `1024 t …` of the sign array. -/
theorem iblk_sx (c : Dev nD) (t : Fin cfg2.N) (r : Fin 1024) (k : Fin 2048) :
    iblk2 V c 0 t (ix2 r k) = SX V c (ix2 ⟨t.val * 1024 + r.val, by have := tlt t; have := r.isLt; omega⟩ k) := by
  obtain ⟨e00, e01, -⟩ := idx_facts t
  show V c main_call0_v25_0 (((cfg2.win 0).blk t).view.emb (ix2 r k)) = V c main_call0_v25_0 (ix2 ⟨t.val * 1024 + r.val, _⟩ k)
  refine congrArg (V c main_call0_v25_0) (funext fun a => Fin.ext ?_)
  match a with
  | ⟨0, _⟩ => show win2_0.index t (0 : Fin 2) * 1024 + 1 * r.val = t.val * 1024 + r.val; omega
  | ⟨1, _⟩ => show win2_0.index t (1 : Fin 2) * 2048 + 1 * k.val = k.val; omega

/-- The row-mean block at point `t` is rows `1024 t …` of the row-mean column. -/
theorem iblk_be (c : Dev nD) (t : Fin cfg2.N) (r : Fin 1024) :
    iblk2 V c 1 t (ix2 r (0 : Fin 1)) = BE V c (ix2 ⟨t.val * 1024 + r.val, by have := tlt t; have := r.isLt; omega⟩ (0 : Fin 1)) := by
  obtain ⟨-, -, e10, e11, -⟩ := idx_facts t
  show V c main_call0_v25_1 (((cfg2.win 1).blk t).view.emb (ix2 r (0 : Fin 1))) = V c main_call0_v25_1 (ix2 ⟨t.val * 1024 + r.val, _⟩ (0 : Fin 1))
  refine congrArg (V c main_call0_v25_1) (funext fun a => Fin.ext ?_)
  match a with
  | ⟨0, _⟩ => show win2_1.index t (0 : Fin 2) * 1024 + 1 * r.val = t.val * 1024 + r.val; omega
  | ⟨1, _⟩ => show win2_1.index t (1 : Fin 2) * 1 + 1 * 0 = 0; omega

/-- The windows that do not move with the grid hold their whole arrays at every point. -/
theorem iblk_sw (c : Dev nD) (t : Fin cfg2.N) : iblk2 V c 2 t = SW V c := by
  obtain ⟨-, -, -, -, e20, e21, -⟩ := idx_facts t
  funext y
  show V c main_call0_v34 (((cfg2.win 2).blk t).view.emb y) = V c main_call0_v34 y
  refine congrArg (V c main_call0_v34) (funext fun a => Fin.ext ?_)
  match a with
  | ⟨0, _⟩ => show win2_2.index t (0 : Fin 2) * 2048 + 1 * (y 0).val = (y 0).val; omega
  | ⟨1, _⟩ => show win2_2.index t (1 : Fin 2) * 512 + 1 * (y 1).val = (y 1).val; omega
theorem iblk_al (c : Dev nD) (t : Fin cfg2.N) : iblk2 V c 3 t = AL V c := by
  obtain ⟨-, -, -, -, -, -, e30, e31, -⟩ := idx_facts t
  funext y
  show V c main_call0_v35 (((cfg2.win 3).blk t).view.emb y) = V c main_call0_v35 y
  refine congrArg (V c main_call0_v35) (funext fun a => Fin.ext ?_)
  match a with
  | ⟨0, _⟩ => show win2_3.index t (0 : Fin 2) * 1 + 1 * (y 0).val = (y 0).val; omega
  | ⟨1, _⟩ => show win2_3.index t (1 : Fin 2) * 512 + 1 * (y 1).val = (y 1).val; omega
theorem iblk_bi (c : Dev nD) (t : Fin cfg2.N) : iblk2 V c 4 t = BI V c := by
  obtain ⟨-, -, -, -, -, -, -, -, e40, e41, -⟩ := idx_facts t
  funext y
  show V c main_call0_v36 (((cfg2.win 4).blk t).view.emb y) = V c main_call0_v36 y
  refine congrArg (V c main_call0_v36) (funext fun a => Fin.ext ?_)
  match a with
  | ⟨0, _⟩ => show win2_4.index t (0 : Fin 2) * 1 + 1 * (y 0).val = (y 0).val; omega
  | ⟨1, _⟩ => show win2_4.index t (1 : Fin 2) * 512 + 1 * (y 1).val = (y 1).val; omega

/-- What point `t` writes back is its block of the whole output layer. -/
theorem flushed5_eq (c : Dev nD) (t : Fin cfg2.N) :
    (dat2 V c).flushed 5 t = ((cfg2.win 5).blk t).view.read (Elt Ideal) (out (SX V c) (BE V c) (SW V c) (AL V c) (BI V c)) := by
  show (cfg2.win 5).cut (grid2.coords t) ((dat2 V c).after 5 t) = _
  rw [after2_5]
  unfold out2_5
  rw [View.canon_unit_zero hz]
  simp only [View.ld_unit_zero (S := S1024x2048) hz, View.ld_unit_zero (S := S1024x1) hz, View.ld_unit_zero (S := S2048x512) hz, View.ld_unit_zero (S := S1x512) hz]
  obtain ⟨-, -, -, -, -, -, -, -, -, -, e50, e51⟩ := idx_facts t
  funext j
  obtain ⟨r, n, rfl⟩ : ∃ (r : Fin 1024) (n : Fin 512), j = ix2 r n := ⟨j 0, j 1, eq_ix2 j⟩
  show k2_pay1 (F := Ideal) (iblk2 V c 0 t) (iblk2 V c 1 t) (iblk2 V c 2 t) (iblk2 V c 3 t) (iblk2 V c 4 t) (ix2 r n)
    = out (SX V c) (BE V c) (SW V c) (AL V c) (BI V c) (((cfg2.win 5).blk t).view.emb (ix2 r n))
  have hemb : ((cfg2.win 5).blk t).view.emb (ix2 r n)
      = ix2 (⟨t.val * 1024 + r.val, by have := tlt t; have := r.isLt; omega⟩ : Fin 32768) n := by
    funext a; apply Fin.ext
    match a with
    | ⟨0, _⟩ => show win2_5.index t (0 : Fin 2) * 1024 + 1 * r.val = t.val * 1024 + r.val; omega
    | ⟨1, _⟩ => show win2_5.index t (1 : Fin 2) * 512 + 1 * n.val = n.val; omega
  rw [hemb, iblk_sw, iblk_al, iblk_bi]
  exact block_out (SX V c) (BE V c) (SW V c) (AL V c) (BI V c) (iblk2 V c 0 t) (iblk2 V c 1 t) (t.val * 1024)
    (by have := tlt t; omega) (fun r k => iblk_sx V c t r k) (fun r => iblk_be V c t r) r n

/-! ## The blocks tile the output -/

theorem mem_blk5 (t : Fin cfg2.N) (i : S32768x512.Idx) :
    i ∈ ((cfg2.win 5).blk t).view.set ↔ ∀ a : Fin 2, win2_5.index t a * S1024x512.size a ≤ (i a).val ∧ (i a).val < win2_5.index t a * S1024x512.size a + S1024x512.size a := by
  show i ∈ ((View.whole main_v0).slice (win2_5.rect t)).set ↔ _
  rw [View.set_slice_whole, Rect.mem_set_unit]
  exact Iff.rfl

/-- Row `i` of the output lies in the block of point `i / 1024`. -/
theorem cover5 (i : S32768x512.Idx) : ∃ t : Fin cfg2.N, (cfg2.win 5).flush t = true ∧ i ∈ ((cfg2.win 5).blk t).view.set := by
  have hi0 : (i 0).val < 32768 := (i 0).isLt
  have hi1 : (i 1).val < 512 := (i 1).isLt
  obtain ⟨t, ht⟩ : ∃ t : Fin cfg2.N, t.val = (i 0).val / 1024 := ⟨⟨(i 0).val / 1024, by show (i 0).val / 1024 < 32; omega⟩, rfl⟩
  obtain ⟨-, -, -, -, -, -, -, -, -, -, e50, e51⟩ := idx_facts t
  refine ⟨t, flush2_5 t, ?_⟩
  rw [mem_blk5]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 512 ≤ (i 1).val ∧ (i 1).val < win2_5.index t (1 : Fin 2) * 512 + 512; omega

/-- The output array ends as the whole output layer. -/
theorem final5 (c : Dev nD) :
    (dat2 V c).arrAt 5 cfg2.N = out (SX V c) (BE V c) (SW V c) (AL V c) (BI V c) :=
  (dat2 V c).arrAt_eq_of_cover 5 _ (fun t _ => flushed5_eq V c t) cover5

end Cert.KernelIdeal.Region2

end
-- ==== Proof.HostOps.lean ====
/-
  The host operations that prepare a layer's weights, read at an index.

  Before each launch the host binarizes the layer's weight matrix `W` (one row per output column): it takes the
  entrywise sign (a comparison with zero choosing between the words for +1 and -1), transposes it and narrows it to
  the 16-bit format (the identity on extended reals); it takes the mean of absolute values of each row of `W` (a row
  sum from the zero word, divided by the row length) and lays it, the bias and the rectifier's slope out as one-row
  matrices. Here each of these arrays is identified with the specification's: the transposed sign matrix `sgnT W`,
  the row means `rowMean d W`, and the bias and slope themselves.
-/
import proofs.«136084_j28200755265763_2_alg».proof.KernelIdeal
import proofs.«136084_j28200755265763_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostOps

open Cert.KernelIdeal Idealize.ShloMosaic Idealize.ShloMosaic.ValueIdx Cert.Xnor

/-! ## The three kinds of array, at any extents -/

/-- The sign matrix of an `N` by `K` weight matrix, transposed and narrowed, is the transposed sign matrix: at
    `(k, n)` it is the sign of `W[n, k]`. A scalar constant broadcast to the matrix's shape reads the constant
    everywhere, and the narrowing is the identity on extended reals, both by unfolding. -/
theorem signT_gen {N K : ℕ} (W : FVec Ideal ⟨2, ![N, K]⟩ .f32)
    (hb : (⟨0, ![]⟩ : Shape).BroadcastsInDim ⟨2, ![N, K]⟩ (![] : Fin 0 → Fin 2))
    (ht : (⟨2, ![N, K]⟩ : Shape).Transposes [1, 0] ⟨2, ![K, N]⟩) (hlt : FTy.bits .bf16 < FTy.bits .f32) :
    truncf .bf16 (transpose ⟨2, ![K, N]⟩ [1, 0]
        (select (cmpf .oge W (broadcastInDim ⟨2, ![N, K]⟩ ![] hb (constant (F := Ideal) ⟨0, ![]⟩ .f32 0x00000000#32)))
          (broadcastInDim ⟨2, ![N, K]⟩ ![] hb (constant (F := Ideal) ⟨0, ![]⟩ .f32 0x3F800000#32))
          (broadcastInDim ⟨2, ![N, K]⟩ ![] hb (constant (F := Ideal) ⟨0, ![]⟩ .f32 0xBF800000#32))) ht) hlt
      = sgnT W := by
  funext i
  obtain ⟨k, n, rfl⟩ : ∃ (k : Fin K) (n : Fin N), i = ix2 k n := ⟨i 0, i 1, eq_ix2 i⟩
  refine (truncf_apply _ hlt _).trans ((transpose_ix2_apply _ ht k n).trans ?_)
  rfl

/-- The column scale: the row sums of `|W|` from the zero word, divided by the constant `d` and laid out as a
    one-row matrix, read at column `n` the mean of absolute values of row `n` of `W`. -/
theorem alpha_gen {N K : ℕ} (d : BitVec 32) (W : FVec Ideal ⟨2, ![N, K]⟩ .f32)
    (hr' : (⟨2, ![N, K]⟩ : Shape).ReducesTo [1] ⟨1, ![N]⟩) (hr : (⟨2, ![N, K]⟩ : Shape).Reduces [1] ⟨1, ![N]⟩)
    (h0 : 0 < (⟨0, ![]⟩ : Shape).numel)
    (hb : (⟨0, ![]⟩ : Shape).BroadcastsInDim ⟨1, ![N]⟩ (![] : Fin 0 → Fin 1))
    (hc : (⟨1, ![N]⟩ : Shape).ShapeCasts ⟨2, ![1, N]⟩) (n : Fin N) :
    shapeCast ⟨2, ![1, N]⟩ (Host.divf (F := Ideal)
        (Host.reduceAdd (F := Ideal) (Host.absf (F := Ideal) W) (constant (F := Ideal) ⟨0, ![]⟩ .f32 0x00000000#32) hr' h0)
        (broadcastInDim ⟨1, ![N]⟩ ![] hb (constant (F := Ideal) ⟨0, ![]⟩ .f32 d))) hc (ix2 (0 : Fin 1) n)
      = rowMean (Ideal.ofBits .f32 d) W n := by
  refine (shapeCast_a_1a_apply _ hc 0 n).trans ?_
  show Ideal.div (Ideal.hostReduceAdd hr' (Host.absf (F := Ideal) W) (Ideal.ofBits .f32 0x00000000#32) (ix1 n))
      (Ideal.ofBits .f32 d) = _
  rw [Ideal.hostReduceAdd_single hr' hr, Ideal.ofBits_zero_f32, zero_add]
  unfold rowMean
  refine congrArg (Ideal.div · _) (Finset.sum_congr rfl fun k _ => ?_)
  have e : hr.lift (ix1 n) k = ix2 n k :=
    funext fun a => Fin.ext (by match a with | ⟨0, _⟩ => rfl | ⟨1, _⟩ => rfl)
  rw [e]
  rfl

/-- A vector laid out as a one-row matrix reads, at column `n`, the vector at `n`. -/
theorem row_gen {N : ℕ} (b : FVec Ideal ⟨1, ![N]⟩ .f32) (hc : (⟨1, ![N]⟩ : Shape).ShapeCasts ⟨2, ![1, N]⟩) (n : Fin N) :
    shapeCast ⟨2, ![1, N]⟩ b hc (ix2 (0 : Fin 1) n) = b (ix1 n) :=
  shapeCast_a_1a_apply b hc 0 n

/-! ## The program's own arrays

The shapes and the shape facts are the program's; the facts are fields of its class of side conditions. -/

section
variable [Facts₀]
open Facts₀

/-! ## Layer 1: weights 2048 by 512 -/

/-- The sign matrix the layer-1 launch reads is the transposed sign matrix of the weights. -/
theorem signT_1 (W : FVec Ideal S2048x512 .f32) :
    truncf .bf16 (transpose S512x2048 [1, 0]
        (select (cmpf .oge W (broadcastInDim S2048x512 ![] bcast_S_S2048x512 (constant (F := Ideal) S_ .f32 0x00000000#32)))
          (broadcastInDim S2048x512 ![] bcast_S_S2048x512 (constant (F := Ideal) S_ .f32 0x3F800000#32))
          (broadcastInDim S2048x512 ![] bcast_S_S2048x512 (constant (F := Ideal) S_ .f32 0xBF800000#32))) transposes_S2048x512_S512x2048_1_0) bitsLt_bf16_f32
      = sgnT W :=
  signT_gen W bcast_S_S2048x512 transposes_S2048x512_S512x2048_1_0 bitsLt_bf16_f32

/-- The column scale the layer-1 launch reads is, at column `n`, the mean of absolute values of row `n` of the weights. -/
theorem alpha_1 (W : FVec Ideal S2048x512 .f32) (n : Fin 2048) :
    shapeCast S1x2048 (Host.divf (F := Ideal)
        (Host.reduceAdd (F := Ideal) (Host.absf (F := Ideal) W) (constant (F := Ideal) S_ .f32 0x00000000#32) reducesTo_S2048x512_S2048_d1 h_S_)
        (broadcastInDim S2048 ![] bcast_S_S2048 (constant (F := Ideal) S_ .f32 0x44000000#32))) shapeCasts_S2048_S1x2048 (ix2 (0 : Fin 1) n)
      = rowMean d512 W n :=
  alpha_gen 0x44000000#32 W reducesTo_S2048x512_S2048_d1 (by decide) h_S_ bcast_S_S2048 shapeCasts_S2048_S1x2048 n

/-- The bias row the layer-1 launch reads is, at column `n`, the bias at `n`. -/
theorem bias_1 (b : FVec Ideal S2048 .f32) (n : Fin 2048) :
    shapeCast S1x2048 b shapeCasts_S2048_S1x2048 (ix2 (0 : Fin 1) n) = b (ix1 n) :=
  row_gen b shapeCasts_S2048_S1x2048 n

/-! ## Layer 2: weights 2048 by 2048 -/

/-- The sign matrix the layer-2 launch reads is the transposed sign matrix of the weights. -/
theorem signT_2 (W : FVec Ideal S2048x2048 .f32) :
    truncf .bf16 (transpose S2048x2048 [1, 0]
        (select (cmpf .oge W (broadcastInDim S2048x2048 ![] bcast_S_S2048x2048 (constant (F := Ideal) S_ .f32 0x00000000#32)))
          (broadcastInDim S2048x2048 ![] bcast_S_S2048x2048 (constant (F := Ideal) S_ .f32 0x3F800000#32))
          (broadcastInDim S2048x2048 ![] bcast_S_S2048x2048 (constant (F := Ideal) S_ .f32 0xBF800000#32))) transposes_S2048x2048_S2048x2048_1_0) bitsLt_bf16_f32
      = sgnT W :=
  signT_gen W bcast_S_S2048x2048 transposes_S2048x2048_S2048x2048_1_0 bitsLt_bf16_f32

/-- The column scale the layer-2 launch reads is, at column `n`, the mean of absolute values of row `n` of the weights. -/
theorem alpha_2 (W : FVec Ideal S2048x2048 .f32) (n : Fin 2048) :
    shapeCast S1x2048 (Host.divf (F := Ideal)
        (Host.reduceAdd (F := Ideal) (Host.absf (F := Ideal) W) (constant (F := Ideal) S_ .f32 0x00000000#32) reducesTo_S2048x2048_S2048_d1 h_S_)
        (broadcastInDim S2048 ![] bcast_S_S2048 (constant (F := Ideal) S_ .f32 0x45000000#32))) shapeCasts_S2048_S1x2048 (ix2 (0 : Fin 1) n)
      = rowMean d2048 W n :=
  alpha_gen 0x45000000#32 W reducesTo_S2048x2048_S2048_d1 (by decide) h_S_ bcast_S_S2048 shapeCasts_S2048_S1x2048 n

/-- The bias row the layer-2 launch reads is, at column `n`, the bias at `n`. -/
theorem bias_2 (b : FVec Ideal S2048 .f32) (n : Fin 2048) :
    shapeCast S1x2048 b shapeCasts_S2048_S1x2048 (ix2 (0 : Fin 1) n) = b (ix1 n) :=
  row_gen b shapeCasts_S2048_S1x2048 n

/-! ## Layer 3: weights 512 by 2048 -/

/-- The sign matrix the layer-3 launch reads is the transposed sign matrix of the weights. -/
theorem signT_3 (W : FVec Ideal S512x2048 .f32) :
    truncf .bf16 (transpose S2048x512 [1, 0]
        (select (cmpf .oge W (broadcastInDim S512x2048 ![] bcast_S_S512x2048 (constant (F := Ideal) S_ .f32 0x00000000#32)))
          (broadcastInDim S512x2048 ![] bcast_S_S512x2048 (constant (F := Ideal) S_ .f32 0x3F800000#32))
          (broadcastInDim S512x2048 ![] bcast_S_S512x2048 (constant (F := Ideal) S_ .f32 0xBF800000#32))) transposes_S512x2048_S2048x512_1_0) bitsLt_bf16_f32
      = sgnT W :=
  signT_gen W bcast_S_S512x2048 transposes_S512x2048_S2048x512_1_0 bitsLt_bf16_f32

/-- The column scale the layer-3 launch reads is, at column `n`, the mean of absolute values of row `n` of the weights. -/
theorem alpha_3 (W : FVec Ideal S512x2048 .f32) (n : Fin 512) :
    shapeCast S1x512 (Host.divf (F := Ideal)
        (Host.reduceAdd (F := Ideal) (Host.absf (F := Ideal) W) (constant (F := Ideal) S_ .f32 0x00000000#32) reducesTo_S512x2048_S512_d1 h_S_)
        (broadcastInDim S512 ![] bcast_S_S512 (constant (F := Ideal) S_ .f32 0x45000000#32))) shapeCasts_S512_S1x512 (ix2 (0 : Fin 1) n)
      = rowMean d2048 W n :=
  alpha_gen 0x45000000#32 W reducesTo_S512x2048_S512_d1 (by decide) h_S_ bcast_S_S512 shapeCasts_S512_S1x512 n

/-- The bias row the layer-3 launch reads is, at column `n`, the bias at `n`. -/
theorem bias_3 (b : FVec Ideal S512 .f32) (n : Fin 512) :
    shapeCast S1x512 b shapeCasts_S512_S1x512 (ix2 (0 : Fin 1) n) = b (ix1 n) :=
  row_gen b shapeCasts_S512_S1x512 n

/-- The rectifier's slope, laid out as a one-by-one matrix, reads the slope. -/
theorem slope_eq (p : FVec Ideal S1 .f32) :
    shapeCast S1x1 p shapeCasts_S1_S1x1 (ix2 (0 : Fin 1) (0 : Fin 1)) = p (ix1 (0 : Fin 1)) :=
  row_gen p shapeCasts_S1_S1x1 0

end

end Cert.KernelIdeal.HostOps

end
-- ==== Proof.Glue.lean ====
/-
  Between the kernel program's three launches: what each buffer a launch reads holds when the launch is entered.

  The program's host code runs in three stretches, one before each launch. A stretch computes, from the layer's
  weights, bias and the rectifier's slope, the arrays the launch reads: the transposed sign matrix of the weights, the
  row means of their absolute values, and the bias and the slope laid out as one-row matrices. The arguments
  themselves are written by nothing, so a stretch finds them as they were at the start; and the two arrays a launch
  writes (the next layer's sign matrix and row scale) are written by no host operation, so the next launch finds them
  as the previous one left them. The result buffer at the end is what the last launch left.
-/
import proofs.«136084_j28200755265763_2_alg».proof.Proof.PatchedFrameKI
import proofs.«136084_j28200755265763_2_alg».proof.Proof.HostOps
import Idealize.ShloMosaic.Lib.StableHlo.Run

set_option maxRecDepth 16384

noncomputable section

namespace Cert.KernelIdeal.Glue

open Cert.KernelIdeal Cert.KernelIdeal.Gen Cert.KernelIdeal.GenP Cert.KernelIdeal.HostOps Cert.Xnor Idealize.ShloMosaic
  Idealize.ShloMosaic.TcCoe Idealize.ShloMosaic.ValueIdx Idealize.SL.Sem

variable (m : (ℓ : Loc nD τ sig) → Buf (Elt Ideal) ℓ) (ρ : Dev nD → PrngReg) (c : Dev nD)

/-- No operation of a stretch writes the buffer: each operation writes its one result buffer, a literal reference
    different from it. -/
local macro "not_written " ops:ident : tactic => `(tactic| (
  refine List.forall_iff_forall_mem.mp ?_
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Buffers a stretch does not write -/

/-- The input is an argument: the first stretch leaves it as launched. -/
theorem g0_x : (V1 m ρ c main_arg0 : Mat 32768 512) = m ((c : Thread nD τ).loc main_arg0) := by
  show StableHlo.after hostOps0 (W0 m ρ c) (Proc.devRef .tc main_arg0) = _
  exact StableHlo.after_of_forall_not_mem (b := Proc.devRef .tc main_arg0) _ _ (by not_written hostOps0)

/-- The sign matrix the first launch writes passes through the second stretch unchanged. -/
theorem g1_sx : (V3 m ρ c main_call0_v12_0 : Mat 32768 2048) = (dat0 (V1 m ρ) c).arrAt 5 cfg0.N := by
  show StableHlo.after hostOps1 (W2 m ρ c) (Proc.devRef .tc main_call0_v12_0) = _
  refine (StableHlo.after_of_forall_not_mem (b := Proc.devRef .tc main_call0_v12_0) _ _ (by not_written hostOps1)).trans ?_
  exact W2_arr m ρ c 5

/-- The row scale the first launch writes passes through the second stretch unchanged. -/
theorem g1_be : (V3 m ρ c main_call0_v12_1 : Mat 32768 1) = (dat0 (V1 m ρ) c).arrAt 6 cfg0.N := by
  show StableHlo.after hostOps1 (W2 m ρ c) (Proc.devRef .tc main_call0_v12_1) = _
  refine (StableHlo.after_of_forall_not_mem (b := Proc.devRef .tc main_call0_v12_1) _ _ (by not_written hostOps1)).trans ?_
  exact W2_arr m ρ c 6

/-- The sign matrix the second launch writes passes through the third stretch unchanged. -/
theorem g2_sx : (V5 m ρ c main_call0_v25_0 : Mat 32768 2048) = (dat1 (V3 m ρ) c).arrAt 6 cfg1.N := by
  show StableHlo.after hostOps2 (W4 m ρ c) (Proc.devRef .tc main_call0_v25_0) = _
  refine (StableHlo.after_of_forall_not_mem (b := Proc.devRef .tc main_call0_v25_0) _ _ (by not_written hostOps2)).trans ?_
  exact W4_arr m ρ c 6

/-- The row scale the second launch writes passes through the third stretch unchanged. -/
theorem g2_be : (V5 m ρ c main_call0_v25_1 : Mat 32768 1) = (dat1 (V3 m ρ) c).arrAt 7 cfg1.N := by
  show StableHlo.after hostOps2 (W4 m ρ c) (Proc.devRef .tc main_call0_v25_1) = _
  refine (StableHlo.after_of_forall_not_mem (b := Proc.devRef .tc main_call0_v25_1) _ _ (by not_written hostOps2)).trans ?_
  exact W4_arr m ρ c 7

/-- The result buffer at the end holds what the third launch left in its output window. -/
theorem g_out : W6 m ρ c (Proc.devRef .tc main_v0) = (dat2 (V5 m ρ) c).arrAt 5 cfg2.N :=
  W6_arr m ρ c 5

/-! ## The arguments when a later stretch is entered

A launch writes only its windows' arrays and a stretch only its operations' results, none of them an argument. -/

theorem W2_arg3 : W2 m ρ c (Proc.devRef .tc main_arg3) = m ((c : Thread nD τ).loc main_arg3) :=
  (W2_of_ne m ρ c main_arg3 (by decide)).trans
    (StableHlo.after_of_forall_not_mem (b := Proc.devRef .tc main_arg3) hostOps0 (W0 m ρ c) (by not_written hostOps0))
theorem W2_arg4 : W2 m ρ c (Proc.devRef .tc main_arg4) = m ((c : Thread nD τ).loc main_arg4) :=
  (W2_of_ne m ρ c main_arg4 (by decide)).trans
    (StableHlo.after_of_forall_not_mem (b := Proc.devRef .tc main_arg4) hostOps0 (W0 m ρ c) (by not_written hostOps0))
theorem W2_arg7 : W2 m ρ c (Proc.devRef .tc main_arg7) = m ((c : Thread nD τ).loc main_arg7) :=
  (W2_of_ne m ρ c main_arg7 (by decide)).trans
    (StableHlo.after_of_forall_not_mem (b := Proc.devRef .tc main_arg7) hostOps0 (W0 m ρ c) (by not_written hostOps0))
theorem W2_arg5 : W2 m ρ c (Proc.devRef .tc main_arg5) = m ((c : Thread nD τ).loc main_arg5) :=
  (W2_of_ne m ρ c main_arg5 (by decide)).trans
    (StableHlo.after_of_forall_not_mem (b := Proc.devRef .tc main_arg5) hostOps0 (W0 m ρ c) (by not_written hostOps0))
theorem W2_arg6 : W2 m ρ c (Proc.devRef .tc main_arg6) = m ((c : Thread nD τ).loc main_arg6) :=
  (W2_of_ne m ρ c main_arg6 (by decide)).trans
    (StableHlo.after_of_forall_not_mem (b := Proc.devRef .tc main_arg6) hostOps0 (W0 m ρ c) (by not_written hostOps0))
theorem W4_arg5 : W4 m ρ c (Proc.devRef .tc main_arg5) = m ((c : Thread nD τ).loc main_arg5) :=
  (W4_of_ne m ρ c main_arg5 (by decide)).trans
    ((StableHlo.after_of_forall_not_mem (b := Proc.devRef .tc main_arg5) hostOps1 (W2 m ρ c) (by not_written hostOps1)).trans
      (W2_arg5 m ρ c))
theorem W4_arg6 : W4 m ρ c (Proc.devRef .tc main_arg6) = m ((c : Thread nD τ).loc main_arg6) :=
  (W4_of_ne m ρ c main_arg6 (by decide)).trans
    ((StableHlo.after_of_forall_not_mem (b := Proc.devRef .tc main_arg6) hostOps1 (W2 m ρ c) (by not_written hostOps1)).trans
      (W2_arg6 m ρ c))

/-! ## The first stretch: what the first launch reads -/

/-- The transposed sign matrix of the first layer's weights. -/
theorem g0_sw : (V1 m ρ c main_call0_v8 : Mat 512 2048) = sgnT (m ((c : Thread nD τ).loc main_arg1)) := by
  show StableHlo.after hostOps0 (W0 m ρ c) (Proc.devRef .tc main_call0_v8) = _
  after_results
  exact signT_1 _

/-- The column scale of the first layer: the row means of the weights' absolute values. -/
theorem g0_al (n : Fin 2048) :
    (V1 m ρ c main_call0_v9 : Mat 1 2048) (ix2 (0 : Fin 1) n) = rowMean d512 (m ((c : Thread nD τ).loc main_arg1)) n := by
  show StableHlo.after hostOps0 (W0 m ρ c) (Proc.devRef .tc main_call0_v9) (ix2 (0 : Fin 1) n) = _
  after_results
  exact alpha_1 _ n

/-- The bias of the first layer as a row. -/
theorem g0_bi (n : Fin 2048) :
    (V1 m ρ c main_call0_v10 : Mat 1 2048) (ix2 (0 : Fin 1) n) = m ((c : Thread nD τ).loc main_arg2) (ix1 n) := by
  show StableHlo.after hostOps0 (W0 m ρ c) (Proc.devRef .tc main_call0_v10) (ix2 (0 : Fin 1) n) = _
  after_results
  exact bias_1 _ n

/-- The rectifier's slope as a one-by-one matrix. -/
theorem g0_pr :
    (V1 m ρ c main_call0_v11 : Mat 1 1) (ix2 (0 : Fin 1) (0 : Fin 1)) = m ((c : Thread nD τ).loc main_arg7) (ix1 (0 : Fin 1)) := by
  show StableHlo.after hostOps0 (W0 m ρ c) (Proc.devRef .tc main_call0_v11) (ix2 (0 : Fin 1) (0 : Fin 1)) = _
  after_results
  exact slope_eq _

/-! ## The second stretch: what the second launch reads -/

/-- The transposed sign matrix of the second layer's weights. -/
theorem g1_sw : (V3 m ρ c main_call0_v21 : Mat 2048 2048) = sgnT (m ((c : Thread nD τ).loc main_arg3)) := by
  show StableHlo.after hostOps1 (W2 m ρ c) (Proc.devRef .tc main_call0_v21) = _
  after_results
  rw [W2_arg3]
  exact signT_2 _

/-- The column scale of the second layer. -/
theorem g1_al (n : Fin 2048) :
    (V3 m ρ c main_call0_v22 : Mat 1 2048) (ix2 (0 : Fin 1) n) = rowMean d2048 (m ((c : Thread nD τ).loc main_arg3)) n := by
  show StableHlo.after hostOps1 (W2 m ρ c) (Proc.devRef .tc main_call0_v22) (ix2 (0 : Fin 1) n) = _
  after_results
  rw [W2_arg3]
  exact alpha_2 _ n

/-- The bias of the second layer as a row. -/
theorem g1_bi (n : Fin 2048) :
    (V3 m ρ c main_call0_v23 : Mat 1 2048) (ix2 (0 : Fin 1) n) = m ((c : Thread nD τ).loc main_arg4) (ix1 n) := by
  show StableHlo.after hostOps1 (W2 m ρ c) (Proc.devRef .tc main_call0_v23) (ix2 (0 : Fin 1) n) = _
  after_results
  rw [W2_arg4]
  exact bias_2 _ n

/-- The rectifier's slope as a one-by-one matrix, again. -/
theorem g1_pr :
    (V3 m ρ c main_call0_v24 : Mat 1 1) (ix2 (0 : Fin 1) (0 : Fin 1)) = m ((c : Thread nD τ).loc main_arg7) (ix1 (0 : Fin 1)) := by
  show StableHlo.after hostOps1 (W2 m ρ c) (Proc.devRef .tc main_call0_v24) (ix2 (0 : Fin 1) (0 : Fin 1)) = _
  after_results
  rw [W2_arg7]
  exact slope_eq _

/-! ## The third stretch: what the third launch reads -/

/-- The transposed sign matrix of the output layer's weights. -/
theorem g2_sw : (V5 m ρ c main_call0_v34 : Mat 2048 512) = sgnT (m ((c : Thread nD τ).loc main_arg5)) := by
  show StableHlo.after hostOps2 (W4 m ρ c) (Proc.devRef .tc main_call0_v34) = _
  after_results
  rw [W4_arg5]
  exact signT_3 _

/-- The column scale of the output layer. -/
theorem g2_al (n : Fin 512) :
    (V5 m ρ c main_call0_v35 : Mat 1 512) (ix2 (0 : Fin 1) n) = rowMean d2048 (m ((c : Thread nD τ).loc main_arg5)) n := by
  show StableHlo.after hostOps2 (W4 m ρ c) (Proc.devRef .tc main_call0_v35) (ix2 (0 : Fin 1) n) = _
  after_results
  rw [W4_arg5]
  exact alpha_3 _ n

/-- The bias of the output layer as a row. -/
theorem g2_bi (n : Fin 512) :
    (V5 m ρ c main_call0_v36 : Mat 1 512) (ix2 (0 : Fin 1) n) = m ((c : Thread nD τ).loc main_arg6) (ix1 n) := by
  show StableHlo.after hostOps2 (W4 m ρ c) (Proc.devRef .tc main_call0_v36) (ix2 (0 : Fin 1) n) = _
  after_results
  rw [W4_arg6]
  exact bias_3 _ n

end Cert.KernelIdeal.Glue

end
-- ==== Proof.Net.lean ====
/-
  The idealized kernel's result array is the network of the specification.

  The result buffer ends at what the third launch's write-backs leave in it: the output layer of the sign array and
  row-mean column the second launch left, which are the sign and row means of the second hidden layer, computed from
  the sign array and row-mean column the first launch left, which are the sign and row means of the first hidden
  layer of the input. Between the launches the host binarizes each weight matrix (its transposed sign matrix and
  the mean of absolute values of each of its rows), and reshapes each bias and the slope; no host operation touches
  what a launch wrote. Composing the three launches' values through those readings gives the network.
-/
import proofs.«136084_j28200755265763_2_alg».proof.Proof.Region0
import proofs.«136084_j28200755265763_2_alg».proof.Proof.Region1
import proofs.«136084_j28200755265763_2_alg».proof.Proof.Region2
import proofs.«136084_j28200755265763_2_alg».proof.Proof.Glue

set_option maxRecDepth 16384

noncomputable section

namespace Cert.KernelIdeal.NetValue

open Cert.KernelIdeal Cert.KernelIdeal.Gen Cert.KernelIdeal.GenP Cert.KernelIdeal.Body Cert.KernelIdeal.Glue Cert.Xnor
open Idealize.ShloMosaic Idealize.ShloMosaic.TcCoe Idealize.ShloMosaic.ValueIdx Idealize.SL.Sem

/-- A hidden layer's value does not change when each of its six operands is replaced by an equal one. -/
theorem hidden_congr {R K N : ℕ} {p p' : EReal} {sx sx' : Mat R K} {beta beta' : Fin R → EReal} {w w' : Mat K N}
    {a a' b b' : Fin N → EReal} (h0 : p = p') (h1 : sx = sx') (h2 : beta = beta') (h3 : w = w') (h4 : a = a') (h5 : b = b') :
    hidden p sx beta w a b = hidden p' sx' beta' w' a' b' := by subst h0 h1 h2 h3 h4 h5; rfl

/-- A one-column matrix of row values, read back at column zero, is the row values. -/
theorem colOf_col {R : ℕ} (f : Fin R → EReal) : (fun r => colOf f (ix2 r (0 : Fin 1))) = f := rfl

variable (m : (ℓ : Loc nD τ sig) → Buf (Elt Ideal) ℓ) (ρ : Dev nD → PrngReg) (c : Dev nD)

/-- The launch arrays, as the specification's matrices and vectors. -/
abbrev aX : Mat 32768 512 := m ((c : Thread nD τ).loc main_arg0)
abbrev aW1 : Mat 2048 512 := m ((c : Thread nD τ).loc main_arg1)
abbrev ab1 : Fin 2048 → EReal := fun n => m ((c : Thread nD τ).loc main_arg2) (ix1 n)
abbrev aW2 : Mat 2048 2048 := m ((c : Thread nD τ).loc main_arg3)
abbrev ab2 : Fin 2048 → EReal := fun n => m ((c : Thread nD τ).loc main_arg4) (ix1 n)
abbrev aW3 : Mat 512 2048 := m ((c : Thread nD τ).loc main_arg5)
abbrev ab3 : Fin 512 → EReal := fun n => m ((c : Thread nD τ).loc main_arg6) (ix1 n)
abbrev ap : EReal := m ((c : Thread nD τ).loc main_arg7) (ix1 (0 : Fin 1))

/-- The first launch's hidden layer is the specification's first layer of the launch arrays. -/
theorem hid0_eq :
    Region0.hid (Region0.X (V1 m ρ) c) (Region0.SW (V1 m ρ) c) (Region0.AL (V1 m ρ) c) (Region0.BI (V1 m ρ) c) (Region0.PR (V1 m ρ) c)
      = layer1 (ap m c) (aX m c) (aW1 m c) (ab1 m c) :=
  hidden_congr (g0_pr m ρ c) (congrArg sgnM (g0_x m ρ c)) (congrArg (rowMean d512) (g0_x m ρ c)) (g0_sw m ρ c)
    (funext (g0_al m ρ c)) (funext (g0_bi m ρ c))

/-- The second launch's hidden layer is the specification's second layer. -/
theorem hid1_eq :
    Region1.hid (Region1.SX (V3 m ρ) c) (Region1.BE (V3 m ρ) c) (Region1.SW (V3 m ρ) c) (Region1.AL (V3 m ρ) c) (Region1.BI (V3 m ρ) c)
        (Region1.PR (V3 m ρ) c)
      = layer2 (ap m c) (layer1 (ap m c) (aX m c) (aW1 m c) (ab1 m c)) (aW2 m c) (ab2 m c) := by
  have hsx : Region1.SX (V3 m ρ) c = sgnM (layer1 (ap m c) (aX m c) (aW1 m c) (ab1 m c)) :=
    ((g1_sx m ρ c).trans (Region0.final5 (V1 m ρ) c)).trans (congrArg sgnM (hid0_eq m ρ c))
  have hbe : Region1.BE (V3 m ρ) c = colOf (rowMean d2048 (layer1 (ap m c) (aX m c) (aW1 m c) (ab1 m c))) :=
    ((g1_be m ρ c).trans (Region0.final6 (V1 m ρ) c)).trans (congrArg (fun H => colOf (rowMean d2048 H)) (hid0_eq m ρ c))
  exact hidden_congr (g1_pr m ρ c) hsx
    ((congrArg (fun (B : Mat 32768 1) => fun r => B (ix2 r (0 : Fin 1))) hbe).trans (colOf_col _))
    (g1_sw m ρ c) (funext (g1_al m ρ c)) (funext (g1_bi m ρ c))

/-- The third launch's output is the specification's output layer. -/
theorem out2_eq :
    Region2.out (Region2.SX (V5 m ρ) c) (Region2.BE (V5 m ρ) c) (Region2.SW (V5 m ρ) c) (Region2.AL (V5 m ρ) c) (Region2.BI (V5 m ρ) c)
      = net (aX m c) (aW1 m c) (ab1 m c) (aW2 m c) (ab2 m c) (aW3 m c) (ab3 m c) (ap m c) := by
  have hsx : Region2.SX (V5 m ρ) c
      = sgnM (layer2 (ap m c) (layer1 (ap m c) (aX m c) (aW1 m c) (ab1 m c)) (aW2 m c) (ab2 m c)) :=
    ((g2_sx m ρ c).trans (Region1.final6 (V3 m ρ) c)).trans (congrArg sgnM (hid1_eq m ρ c))
  have hbe : Region2.BE (V5 m ρ) c
      = colOf (rowMean d2048 (layer2 (ap m c) (layer1 (ap m c) (aX m c) (aW1 m c) (ab1 m c)) (aW2 m c) (ab2 m c))) :=
    ((g2_be m ρ c).trans (Region1.final7 (V3 m ρ) c)).trans (congrArg (fun H => colOf (rowMean d2048 H)) (hid1_eq m ρ c))
  exact lin_congr hsx
    ((congrArg (fun (B : Mat 32768 1) => fun r => B (ix2 r (0 : Fin 1))) hbe).trans (colOf_col _))
    (g2_sw m ρ c) (funext (g2_al m ρ c)) (funext (g2_bi m ρ c))

/-- The result buffer at the end of the run is the network of the launch arrays. -/
theorem result_eq :
    W6 m ρ c (Proc.devRef .tc main_v0)
      = net (aX m c) (aW1 m c) (ab1 m c) (aW2 m c) (ab2 m c) (aW3 m c) (ab3 m c) (ap m c) :=
  ((g_out m ρ c).trans (Region2.final5 (V5 m ρ) c)).trans (out2_eq m ρ c)

end Cert.KernelIdeal.NetValue

end
-- ==== Proof.RefNet.lean ====
/-
  The reference program is the network of the specification.

  The reference computes, layer by layer, a binarized linear layer: the entrywise sign of its input (a comparison
  with zero choosing between the words for +1 and -1), the mean of absolute values of each input row and of each
  weight row (a row sum from the zero word, divided by the row length), the product of the sign matrix with the
  transposed sign matrix of the weights, the two scalings and the bias, and, after the first two layers, the
  parametric rectifier. Each stage is read at an index; the stages' index maps are identified with the coordinate
  constructors, the row sum's initial zero is dropped by `zero_add`, and what is left is the specification's term.
-/
import proofs.«136084_j28200755265763_2_alg».proof.Proof.Gen.ReferenceIdeal.Read
import proofs.«136084_j28200755265763_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Xnor

/-! ## Scalar readings -/

/-- Comparing with the zero word and choosing between the words for +1 and -1 is the sign. -/
theorem sgn_read (x : EReal) :
    Scalar.select (FloatOps.cmpf (F := Ideal) (φ := .f32) .oge x (FloatOps.ofBits (F := Ideal) .f32 0x00000000#32))
      (FloatOps.ofBits (F := Ideal) .f32 0x3F800000#32) (FloatOps.ofBits (F := Ideal) .f32 0xBF800000#32) = sgn x := rfl

/-- Choosing `z` where it is above the zero word and `p * z` elsewhere is the parametric rectifier. -/
theorem prelu_read (p z : EReal) :
    Scalar.select (FloatOps.cmpf (F := Ideal) (φ := .f32) .ogt z (FloatOps.ofBits (F := Ideal) .f32 0x00000000#32)) z
      (FloatOps.mulf (F := Ideal) (φ := .f32) p z) = prelu p z := rfl

/-- A row sum started from the zero word and divided by `d` is the row mean of absolute values. -/
theorem mean_read {R C : ℕ} (d : BitVec 32) (X : Mat R C) (r : Fin R) :
    FloatOps.hostDivf (F := Ideal) (φ := .f32)
      (FloatOps.ofBits (F := Ideal) .f32 0x00000000#32 + ∑ c : Fin C, FloatOps.hostAbsf (F := Ideal) (φ := .f32) (X (ix2 r c)))
      (FloatOps.ofBits (F := Ideal) .f32 d) = rowMean (Ideal.ofBits .f32 d) X r := by
  rw [show FloatOps.ofBits (F := Ideal) .f32 0x00000000#32 = (0 : EReal) from Ideal.ofBits_zero_f32, zero_add]
  rfl

/-! ## Layer 1: input 32768 by 512, weights 2048 by 512 -/

theorem idxRed1 (r : Fin 32768) (k : Fin 512) : idx_main_v1 (ix1 r) k = ix2 r k :=
  funext fun a => Fin.ext (by match a with | ⟨0, _⟩ => rfl | ⟨1, _⟩ => rfl)
theorem idxBc1 (r : Fin 32768) (z : Fin 1) : idx_main_v2 (ix2 r z) = ix1 r :=
  funext fun a => Fin.ext (by match a with | ⟨0, _⟩ => rfl)
theorem idxRedW1 (n : Fin 2048) (k : Fin 512) : idx_main_v6 (ix1 n) k = ix2 n k :=
  funext fun a => Fin.ext (by match a with | ⟨0, _⟩ => rfl | ⟨1, _⟩ => rfl)
theorem idxTr1 (k : Fin 512) (n : Fin 2048) : idx_main_v17 (ix2 k n) = ix2 n k :=
  funext fun a => Fin.ext (by match a with | ⟨0, _⟩ => rfl | ⟨1, _⟩ => rfl)
theorem lidx1 (r : Fin 32768) (n : Fin 2048) (k : Fin 512) : lidx_main_v18 (ix2 r n) k = ix2 r k :=
  funext fun a => Fin.ext (by match a with | ⟨0, _⟩ => rfl | ⟨1, _⟩ => rfl)
theorem ridx1 (r : Fin 32768) (n : Fin 2048) (k : Fin 512) : ridx_main_v18 (ix2 r n) k = ix2 k n :=
  funext fun a => Fin.ext (by match a with | ⟨0, _⟩ => rfl | ⟨1, _⟩ => rfl)
theorem idxBeta1 (r : Fin 32768) (n : Fin 2048) : idx_main_v19 (ix2 r n) = ix2 r (0 : Fin 1) :=
  funext fun a => Fin.ext (by match a with | ⟨0, _⟩ => rfl | ⟨1, _⟩ => rfl)
theorem idxA1_1 (z : Fin 1) (n : Fin 2048) : idx_main_v21 (ix2 z n) = ix1 n :=
  funext fun a => Fin.ext (by match a with | ⟨0, _⟩ => rfl)
theorem idxA2_1 (r : Fin 32768) (n : Fin 2048) : idx_main_v22 (ix2 r n) = ix2 (0 : Fin 1) n :=
  funext fun a => Fin.ext (by match a with | ⟨0, _⟩ => rfl | ⟨1, _⟩ => rfl)
theorem idxB1_1 (z : Fin 1) (n : Fin 2048) : idx_main_v24 (ix2 z n) = ix1 n :=
  funext fun a => Fin.ext (by match a with | ⟨0, _⟩ => rfl)
theorem idxB2_1 (r : Fin 32768) (n : Fin 2048) : idx_main_v25 (ix2 r n) = ix2 (0 : Fin 1) n :=
  funext fun a => Fin.ext (by match a with | ⟨0, _⟩ => rfl | ⟨1, _⟩ => rfl)
theorem idxP1 (i : S1x1.Idx) : idx_main_v29 i = ix1 (0 : Fin 1) :=
  funext fun a => Fin.ext (by match a with | ⟨0, _⟩ => rfl)

/-- The row scale of the input: stage 4 at row `r` is the mean of absolute values of the input's row `r`. -/
theorem beta1 (x0 : (⟨S32768x512, .f32⟩ : BufTy).Contents (Elt Ideal)) (r : Fin 32768) (z : Fin 1) :
    val_main_v4 (F := Ideal) x0 (ix2 r z) = rowMean d512 x0 r := by
  rw [val_main_v4_apply, val_main_v3_apply, val_main_cst_0_apply, val_main_v2_apply, idxBc1, val_main_v1_apply, val_main_cst_apply]
  simp only [val_main_v0_apply, idxRed1]
  exact mean_read 0x44000000#32 x0 r

/-- The column scale of the weights: stage 8 at `n` is the mean of absolute values of the weights' row `n`. -/
theorem alpha1 (x1 : (⟨S2048x512, .f32⟩ : BufTy).Contents (Elt Ideal)) (n : Fin 2048) :
    val_main_v8 (F := Ideal) x1 (ix1 n) = rowMean d512 x1 n := by
  rw [val_main_v8_apply, val_main_v7_apply, val_main_cst_2_apply, val_main_v6_apply, val_main_cst_1_apply]
  simp only [val_main_v5_apply, idxRedW1]
  exact mean_read 0x44000000#32 x1 n

/-- The sign matrix of the input: stage 12. -/
theorem sgnX1 (x0 : (⟨S32768x512, .f32⟩ : BufTy).Contents (Elt Ideal)) :
    val_main_v12 (F := Ideal) x0 = sgnM x0 := by
  funext i
  rw [val_main_v12_apply, val_main_v11_apply, val_main_v10_apply, val_main_v9_apply, val_main_cst_3_apply, val_main_call0_v0_apply, val_main_cst_4_apply,
    val_main_call0_v1_apply, val_main_cst_5_apply]
  exact sgn_read _

/-- The transposed sign matrix of the weights: stage 17. -/
theorem sgnW1 (x1 : (⟨S2048x512, .f32⟩ : BufTy).Contents (Elt Ideal)) :
    val_main_v17 (F := Ideal) x1 = sgnT x1 := by
  funext i
  obtain ⟨k, n, rfl⟩ : ∃ (k : Fin 512) (n : Fin 2048), i = ix2 k n := ⟨i 0, i 1, eq_ix2 i⟩
  rw [val_main_v17_apply, idxTr1, val_main_v16_apply, val_main_v15_apply, val_main_v14_apply, val_main_v13_apply, val_main_cst_6_apply, val_main_call1_v0_apply,
    val_main_cst_7_apply, val_main_call1_v1_apply, val_main_cst_8_apply]
  exact sgn_read _

/-- The linear layer: stage 26 is the product of the sign matrices, scaled by row and by column, plus the bias. -/
theorem lin1 (x0 : (⟨S32768x512, .f32⟩ : BufTy).Contents (Elt Ideal)) (x1 : (⟨S2048x512, .f32⟩ : BufTy).Contents (Elt Ideal)) (x2 : (⟨S2048, .f32⟩ : BufTy).Contents (Elt Ideal)) :
    val_main_v26 (F := Ideal) x0 x1 x2
      = lin (sgnM x0) (rowMean d512 x0) (sgnT x1) (rowMean d512 x1) (fun n => x2 (ix1 n)) := by
  funext i
  obtain ⟨r, n, rfl⟩ : ∃ (r : Fin 32768) (n : Fin 2048), i = ix2 r n := ⟨i 0, i 1, eq_ix2 i⟩
  rw [val_main_v26_apply, val_main_v25_apply, idxB2_1, val_main_v24_apply, idxB1_1, val_main_v23_apply, val_main_v22_apply, idxA2_1, val_main_v21_apply,
    idxA1_1, alpha1, val_main_v20_apply, val_main_v19_apply, idxBeta1, beta1, val_main_v18_apply, sgnX1, sgnW1]
  simp only [lidx1, ridx1]
  rfl

/-- The rectifier after the linear layer: stage 32 is the hidden layer of the specification. -/
theorem layer1_eq (x0 : (⟨S32768x512, .f32⟩ : BufTy).Contents (Elt Ideal)) (x1 : (⟨S2048x512, .f32⟩ : BufTy).Contents (Elt Ideal)) (x2 : (⟨S2048, .f32⟩ : BufTy).Contents (Elt Ideal)) (x7 : (⟨S1, .f32⟩ : BufTy).Contents (Elt Ideal)) :
    val_main_v32 (F := Ideal) x0 x1 x2 x7
      = layer1 (x7 (ix1 (0 : Fin 1))) x0 x1 (fun n => x2 (ix1 n)) := by
  funext i
  rw [val_main_v32_apply, val_main_v31_apply, val_main_v30_apply, val_main_v29_apply, idxP1, val_main_v28_apply, val_main_v27_apply, val_main_cst_9_apply, lin1]
  exact prelu_read _ _

/-! ## Layer 2: input 32768 by 2048, weights 2048 by 2048 -/

theorem idxRed2 (r : Fin 32768) (k : Fin 2048) : idx_main_v34 (ix1 r) k = ix2 r k :=
  funext fun a => Fin.ext (by match a with | ⟨0, _⟩ => rfl | ⟨1, _⟩ => rfl)
theorem idxBc2 (r : Fin 32768) (z : Fin 1) : idx_main_v35 (ix2 r z) = ix1 r :=
  funext fun a => Fin.ext (by match a with | ⟨0, _⟩ => rfl)
theorem idxRedW2 (n : Fin 2048) (k : Fin 2048) : idx_main_v39 (ix1 n) k = ix2 n k :=
  funext fun a => Fin.ext (by match a with | ⟨0, _⟩ => rfl | ⟨1, _⟩ => rfl)
theorem idxTr2 (k : Fin 2048) (n : Fin 2048) : idx_main_v50 (ix2 k n) = ix2 n k :=
  funext fun a => Fin.ext (by match a with | ⟨0, _⟩ => rfl | ⟨1, _⟩ => rfl)
theorem lidx2 (r : Fin 32768) (n : Fin 2048) (k : Fin 2048) : lidx_main_v51 (ix2 r n) k = ix2 r k :=
  funext fun a => Fin.ext (by match a with | ⟨0, _⟩ => rfl | ⟨1, _⟩ => rfl)
theorem ridx2 (r : Fin 32768) (n : Fin 2048) (k : Fin 2048) : ridx_main_v51 (ix2 r n) k = ix2 k n :=
  funext fun a => Fin.ext (by match a with | ⟨0, _⟩ => rfl | ⟨1, _⟩ => rfl)
theorem idxBeta2 (r : Fin 32768) (n : Fin 2048) : idx_main_v52 (ix2 r n) = ix2 r (0 : Fin 1) :=
  funext fun a => Fin.ext (by match a with | ⟨0, _⟩ => rfl | ⟨1, _⟩ => rfl)
theorem idxA1_2 (z : Fin 1) (n : Fin 2048) : idx_main_v54 (ix2 z n) = ix1 n :=
  funext fun a => Fin.ext (by match a with | ⟨0, _⟩ => rfl)
theorem idxA2_2 (r : Fin 32768) (n : Fin 2048) : idx_main_v55 (ix2 r n) = ix2 (0 : Fin 1) n :=
  funext fun a => Fin.ext (by match a with | ⟨0, _⟩ => rfl | ⟨1, _⟩ => rfl)
theorem idxB1_2 (z : Fin 1) (n : Fin 2048) : idx_main_v57 (ix2 z n) = ix1 n :=
  funext fun a => Fin.ext (by match a with | ⟨0, _⟩ => rfl)
theorem idxB2_2 (r : Fin 32768) (n : Fin 2048) : idx_main_v58 (ix2 r n) = ix2 (0 : Fin 1) n :=
  funext fun a => Fin.ext (by match a with | ⟨0, _⟩ => rfl | ⟨1, _⟩ => rfl)
theorem idxP2 (i : S1x1.Idx) : idx_main_v62 i = ix1 (0 : Fin 1) :=
  funext fun a => Fin.ext (by match a with | ⟨0, _⟩ => rfl)

/-- The row scale of the input: stage 37 at row `r` is the mean of absolute values of the input's row `r`. -/
theorem beta2 (x0 : (⟨S32768x512, .f32⟩ : BufTy).Contents (Elt Ideal)) (x1 : (⟨S2048x512, .f32⟩ : BufTy).Contents (Elt Ideal)) (x2 : (⟨S2048, .f32⟩ : BufTy).Contents (Elt Ideal)) (x7 : (⟨S1, .f32⟩ : BufTy).Contents (Elt Ideal)) (r : Fin 32768) (z : Fin 1) :
    val_main_v37 (F := Ideal) x0 x1 x2 x7 (ix2 r z) = rowMean d2048 (val_main_v32 (F := Ideal) x0 x1 x2 x7) r := by
  rw [val_main_v37_apply, val_main_v36_apply, val_main_cst_11_apply, val_main_v35_apply, idxBc2, val_main_v34_apply, val_main_cst_10_apply]
  simp only [val_main_v33_apply, idxRed2]
  exact mean_read 0x45000000#32 (val_main_v32 (F := Ideal) x0 x1 x2 x7) r

/-- The column scale of the weights: stage 41 at `n` is the mean of absolute values of the weights' row `n`. -/
theorem alpha2 (x3 : (⟨S2048x2048, .f32⟩ : BufTy).Contents (Elt Ideal)) (n : Fin 2048) :
    val_main_v41 (F := Ideal) x3 (ix1 n) = rowMean d2048 x3 n := by
  rw [val_main_v41_apply, val_main_v40_apply, val_main_cst_13_apply, val_main_v39_apply, val_main_cst_12_apply]
  simp only [val_main_v38_apply, idxRedW2]
  exact mean_read 0x45000000#32 x3 n

/-- The sign matrix of the input: stage 45. -/
theorem sgnX2 (x0 : (⟨S32768x512, .f32⟩ : BufTy).Contents (Elt Ideal)) (x1 : (⟨S2048x512, .f32⟩ : BufTy).Contents (Elt Ideal)) (x2 : (⟨S2048, .f32⟩ : BufTy).Contents (Elt Ideal)) (x7 : (⟨S1, .f32⟩ : BufTy).Contents (Elt Ideal)) :
    val_main_v45 (F := Ideal) x0 x1 x2 x7 = sgnM (val_main_v32 (F := Ideal) x0 x1 x2 x7) := by
  funext i
  rw [val_main_v45_apply, val_main_v44_apply, val_main_v43_apply, val_main_v42_apply, val_main_cst_14_apply, val_main_call3_v0_apply, val_main_cst_15_apply,
    val_main_call3_v1_apply, val_main_cst_16_apply]
  exact sgn_read _

/-- The transposed sign matrix of the weights: stage 50. -/
theorem sgnW2 (x3 : (⟨S2048x2048, .f32⟩ : BufTy).Contents (Elt Ideal)) :
    val_main_v50 (F := Ideal) x3 = sgnT x3 := by
  funext i
  obtain ⟨k, n, rfl⟩ : ∃ (k : Fin 2048) (n : Fin 2048), i = ix2 k n := ⟨i 0, i 1, eq_ix2 i⟩
  rw [val_main_v50_apply, idxTr2, val_main_v49_apply, val_main_v48_apply, val_main_v47_apply, val_main_v46_apply, val_main_cst_17_apply, val_main_call4_v0_apply,
    val_main_cst_18_apply, val_main_call4_v1_apply, val_main_cst_19_apply]
  exact sgn_read _

/-- The linear layer: stage 59 is the product of the sign matrices, scaled by row and by column, plus the bias. -/
theorem lin2 (x0 : (⟨S32768x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x7 : (⟨S1, .f32⟩ : BufTy).Contents (Elt Ideal)) :
    val_main_v59 (F := Ideal) x0 x1 x2 x3 x4 x7
      = lin (sgnM (val_main_v32 (F := Ideal) x0 x1 x2 x7)) (rowMean d2048 (val_main_v32 (F := Ideal) x0 x1 x2 x7)) (sgnT x3) (rowMean d2048 x3) (fun n => x4 (ix1 n)) := by
  funext i
  obtain ⟨r, n, rfl⟩ : ∃ (r : Fin 32768) (n : Fin 2048), i = ix2 r n := ⟨i 0, i 1, eq_ix2 i⟩
  rw [val_main_v59_apply, val_main_v58_apply, idxB2_2, val_main_v57_apply, idxB1_2, val_main_v56_apply, val_main_v55_apply, idxA2_2, val_main_v54_apply,
    idxA1_2, alpha2, val_main_v53_apply, val_main_v52_apply, idxBeta2, beta2, val_main_v51_apply, sgnX2, sgnW2]
  simp only [lidx2, ridx2]
  generalize val_main_v32 (F := Ideal) x0 x1 x2 x7 = H
  rfl

/-- The rectifier after the linear layer: stage 65 is the hidden layer of the specification. -/
theorem layer2_eq (x0 : (⟨S32768x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x7 : (⟨S1, .f32⟩ : BufTy).Contents (Elt Ideal)) :
    val_main_v65 (F := Ideal) x0 x1 x2 x3 x4 x7
      = layer2 (x7 (ix1 (0 : Fin 1))) (val_main_v32 (F := Ideal) x0 x1 x2 x7) x3 (fun n => x4 (ix1 n)) := by
  funext i
  rw [val_main_v65_apply, val_main_v64_apply, val_main_v63_apply, val_main_v62_apply, idxP2, val_main_v61_apply, val_main_v60_apply, val_main_cst_20_apply, lin2]
  exact prelu_read _ _

/-! ## Layer 3: input 32768 by 2048, weights 512 by 2048 -/

theorem idxRed3 (r : Fin 32768) (k : Fin 2048) : idx_main_v67 (ix1 r) k = ix2 r k :=
  funext fun a => Fin.ext (by match a with | ⟨0, _⟩ => rfl | ⟨1, _⟩ => rfl)
theorem idxBc3 (r : Fin 32768) (z : Fin 1) : idx_main_v68 (ix2 r z) = ix1 r :=
  funext fun a => Fin.ext (by match a with | ⟨0, _⟩ => rfl)
theorem idxRedW3 (n : Fin 512) (k : Fin 2048) : idx_main_v72 (ix1 n) k = ix2 n k :=
  funext fun a => Fin.ext (by match a with | ⟨0, _⟩ => rfl | ⟨1, _⟩ => rfl)
theorem idxTr3 (k : Fin 2048) (n : Fin 512) : idx_main_v83 (ix2 k n) = ix2 n k :=
  funext fun a => Fin.ext (by match a with | ⟨0, _⟩ => rfl | ⟨1, _⟩ => rfl)
theorem lidx3 (r : Fin 32768) (n : Fin 512) (k : Fin 2048) : lidx_main_v84 (ix2 r n) k = ix2 r k :=
  funext fun a => Fin.ext (by match a with | ⟨0, _⟩ => rfl | ⟨1, _⟩ => rfl)
theorem ridx3 (r : Fin 32768) (n : Fin 512) (k : Fin 2048) : ridx_main_v84 (ix2 r n) k = ix2 k n :=
  funext fun a => Fin.ext (by match a with | ⟨0, _⟩ => rfl | ⟨1, _⟩ => rfl)
theorem idxBeta3 (r : Fin 32768) (n : Fin 512) : idx_main_v85 (ix2 r n) = ix2 r (0 : Fin 1) :=
  funext fun a => Fin.ext (by match a with | ⟨0, _⟩ => rfl | ⟨1, _⟩ => rfl)
theorem idxA1_3 (z : Fin 1) (n : Fin 512) : idx_main_v87 (ix2 z n) = ix1 n :=
  funext fun a => Fin.ext (by match a with | ⟨0, _⟩ => rfl)
theorem idxA2_3 (r : Fin 32768) (n : Fin 512) : idx_main_v88 (ix2 r n) = ix2 (0 : Fin 1) n :=
  funext fun a => Fin.ext (by match a with | ⟨0, _⟩ => rfl | ⟨1, _⟩ => rfl)
theorem idxB1_3 (z : Fin 1) (n : Fin 512) : idx_main_v90 (ix2 z n) = ix1 n :=
  funext fun a => Fin.ext (by match a with | ⟨0, _⟩ => rfl)
theorem idxB2_3 (r : Fin 32768) (n : Fin 512) : idx_main_v91 (ix2 r n) = ix2 (0 : Fin 1) n :=
  funext fun a => Fin.ext (by match a with | ⟨0, _⟩ => rfl | ⟨1, _⟩ => rfl)

/-- The row scale of the input: stage 70 at row `r` is the mean of absolute values of the input's row `r`. -/
theorem beta3 (x0 : (⟨S32768x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x7 : (⟨S1, .f32⟩ : BufTy).Contents (Elt Ideal)) (r : Fin 32768) (z : Fin 1) :
    val_main_v70 (F := Ideal) x0 x1 x2 x3 x4 x7 (ix2 r z) = rowMean d2048 (val_main_v65 (F := Ideal) x0 x1 x2 x3 x4 x7) r := by
  rw [val_main_v70_apply, val_main_v69_apply, val_main_cst_22_apply, val_main_v68_apply, idxBc3, val_main_v67_apply, val_main_cst_21_apply]
  simp only [val_main_v66_apply, idxRed3]
  exact mean_read 0x45000000#32 (val_main_v65 (F := Ideal) x0 x1 x2 x3 x4 x7) r

/-- The column scale of the weights: stage 74 at `n` is the mean of absolute values of the weights' row `n`. -/
theorem alpha3 (x5 : (⟨S512x2048, .f32⟩ : BufTy).Contents (Elt Ideal)) (n : Fin 512) :
    val_main_v74 (F := Ideal) x5 (ix1 n) = rowMean d2048 x5 n := by
  rw [val_main_v74_apply, val_main_v73_apply, val_main_cst_24_apply, val_main_v72_apply, val_main_cst_23_apply]
  simp only [val_main_v71_apply, idxRedW3]
  exact mean_read 0x45000000#32 x5 n

/-- The sign matrix of the input: stage 78. -/
theorem sgnX3 (x0 : (⟨S32768x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x7 : (⟨S1, .f32⟩ : BufTy).Contents (Elt Ideal)) :
    val_main_v78 (F := Ideal) x0 x1 x2 x3 x4 x7 = sgnM (val_main_v65 (F := Ideal) x0 x1 x2 x3 x4 x7) := by
  funext i
  rw [val_main_v78_apply, val_main_v77_apply, val_main_v76_apply, val_main_v75_apply, val_main_cst_25_apply, val_main_call6_v0_apply, val_main_cst_26_apply,
    val_main_call6_v1_apply, val_main_cst_27_apply]
  exact sgn_read _

/-- The transposed sign matrix of the weights: stage 83. -/
theorem sgnW3 (x5 : (⟨S512x2048, .f32⟩ : BufTy).Contents (Elt Ideal)) :
    val_main_v83 (F := Ideal) x5 = sgnT x5 := by
  funext i
  obtain ⟨k, n, rfl⟩ : ∃ (k : Fin 2048) (n : Fin 512), i = ix2 k n := ⟨i 0, i 1, eq_ix2 i⟩
  rw [val_main_v83_apply, idxTr3, val_main_v82_apply, val_main_v81_apply, val_main_v80_apply, val_main_v79_apply, val_main_cst_28_apply, val_main_call7_v0_apply,
    val_main_cst_29_apply, val_main_call7_v1_apply, val_main_cst_30_apply]
  exact sgn_read _

/-- The linear layer: stage 92 is the product of the sign matrices, scaled by row and by column, plus the bias. -/
theorem lin3 (x0 : (⟨S32768x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S512x2048, .f32⟩ : BufTy).Contents (Elt Ideal)) (x6 : (⟨S512, .f32⟩ : BufTy).Contents (Elt Ideal)) (x7 : (⟨S1, .f32⟩ : BufTy).Contents (Elt Ideal)) :
    val_main_v92 (F := Ideal) x0 x1 x2 x3 x4 x5 x6 x7
      = lin (sgnM (val_main_v65 (F := Ideal) x0 x1 x2 x3 x4 x7)) (rowMean d2048 (val_main_v65 (F := Ideal) x0 x1 x2 x3 x4 x7)) (sgnT x5) (rowMean d2048 x5) (fun n => x6 (ix1 n)) := by
  funext i
  obtain ⟨r, n, rfl⟩ : ∃ (r : Fin 32768) (n : Fin 512), i = ix2 r n := ⟨i 0, i 1, eq_ix2 i⟩
  rw [val_main_v92_apply, val_main_v91_apply, idxB2_3, val_main_v90_apply, idxB1_3, val_main_v89_apply, val_main_v88_apply, idxA2_3, val_main_v87_apply,
    idxA1_3, alpha3, val_main_v86_apply, val_main_v85_apply, idxBeta3, beta3, val_main_v84_apply, sgnX3, sgnW3]
  simp only [lidx3, ridx3]
  generalize val_main_v65 (F := Ideal) x0 x1 x2 x3 x4 x7 = H
  rfl

/-- The output layer has no rectifier: stage 92 is the output layer of the specification. -/
theorem layer3_eq (x0 : (⟨S32768x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S512x2048, .f32⟩ : BufTy).Contents (Elt Ideal)) (x6 : (⟨S512, .f32⟩ : BufTy).Contents (Elt Ideal)) (x7 : (⟨S1, .f32⟩ : BufTy).Contents (Elt Ideal)) :
    val_main_v92 (F := Ideal) x0 x1 x2 x3 x4 x5 x6 x7 = layer3 (val_main_v65 (F := Ideal) x0 x1 x2 x3 x4 x7) x5 (fun n => x6 (ix1 n)) := lin3 x0 x1 x2 x3 x4 x5 x6 x7

/-! ## The whole program -/

/-- The reference program's result is the network of the specification, of the arguments it was given. -/
theorem ref_eq_net (x0 : (⟨S32768x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S512x2048, .f32⟩ : BufTy).Contents (Elt Ideal)) (x6 : (⟨S512, .f32⟩ : BufTy).Contents (Elt Ideal)) (x7 : (⟨S1, .f32⟩ : BufTy).Contents (Elt Ideal)) :
    val_main_v92 (F := Ideal) x0 x1 x2 x3 x4 x5 x6 x7
      = Cert.Xnor.net x0 x1 (fun n => x2 (ix1 n)) x3 (fun n => x4 (ix1 n)) x5 (fun n => x6 (ix1 n)) (x7 (ix1 (0 : Fin 1))) := by
  rw [layer3_eq, layer2_eq, layer1_eq]
  rfl

end Cert.ReferenceIdeal.RefValue

end
-- ==== Proof.lean ====
/-
  The certificate: a three-layer binarized perceptron computed by three chained kernels equals its plain reference on
  the extended reals.

  Each layer binarizes its input rows (the entrywise sign with sign 0 = 1 and the mean of absolute values of each row)
  and its weight rows the same way, multiplies the two sign matrices, scales row `r` by the input's row mean and column
  `n` by the weight's row mean, and adds the bias; a parametric rectifier follows the first two layers. The kernels pass
  the sign array and the row-mean column from one launch to the next, which is the same data the reference recomputes
  from the hidden layer, so at exact arithmetic both programs compute one function of the arguments
  (`Cert.Xnor.net`): the kernel side block of rows by block of rows, the reference whole. No algebraic law beyond
  re-indexing the sums is used, so the precondition is never opened.

  The three frames: the two kernel programs by their frame proofs, the reference by its run with the result dropped.
  The idealization rewrote no operation, so there is nothing to preserve.
-/
import proofs.«136084_j28200755265763_2_alg».proof.Defs
import proofs.«136084_j28200755265763_2_alg».proof.Proof.Gen.Kernel
import proofs.«136084_j28200755265763_2_alg».proof.Proof.Gen.KernelIdeal
import proofs.«136084_j28200755265763_2_alg».proof.Proof.Gen.ReferenceIdeal
import proofs.«136084_j28200755265763_2_alg».proof.Proof.Gen.Pre_finite_inputs
import proofs.«136084_j28200755265763_2_alg».proof.Proof.Gen.ReferenceIdeal.Run
import proofs.«136084_j28200755265763_2_alg».proof.Proof.Gen.ReferenceIdeal.Read
import proofs.«136084_j28200755265763_2_alg».proof.Proof.PatchedFrameK
import proofs.«136084_j28200755265763_2_alg».proof.Proof.PatchedFrameKI
import proofs.«136084_j28200755265763_2_alg».proof.Proof.KRun
import proofs.«136084_j28200755265763_2_alg».proof.Proof.Net
import proofs.«136084_j28200755265763_2_alg».proof.Proof.RefNet
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of the arguments in their result
    buffers: the kernel's run names its result, which the three launches' values compose to the network; the
    reference's run names its result, which its operations compose to the same network. -/
theorem algebraic : Cert.algebraic_KernelIdeal_ReferenceIdeal := by
  intro m ρ m' ρ' _ hagree
  refine ⟨fun c => Cert.Xnor.net (Cert.KernelIdeal.NetValue.aX m c) (Cert.KernelIdeal.NetValue.aW1 m c) (Cert.KernelIdeal.NetValue.ab1 m c)
      (Cert.KernelIdeal.NetValue.aW2 m c) (Cert.KernelIdeal.NetValue.ab2 m c) (Cert.KernelIdeal.NetValue.aW3 m c)
      (Cert.KernelIdeal.NetValue.ab3 m c) (Cert.KernelIdeal.NetValue.ap m c), ?_, ?_⟩
  · exact (θ_run Cert.KernelIdeal.defs _ _).mono
      (fun r h c => ⟨(h c).1.trans (Cert.KernelIdeal.NetValue.result_eq m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v92_eq, Cert.ReferenceIdeal.RefValue.ref_eq_net, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
